-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x128x128 : Shape := ⟨4, ![16, 64, 128, 128]⟩
abbrev S4 : Shape := ⟨1, ![4]⟩
abbrev S_ : Shape := ⟨0, ![]⟩

class Facts : Prop where
  bcast_S_S16x64x128x128 : S_.BroadcastsInDim S16x64x128x128 (![] : Fin 0 → Fin S16x64x128x128.rank)
  reducesTo_S16x64x128x128_S_d0_1_2_3 : S16x64x128x128.ReducesTo [0, 1, 2, 3] S_
  h_S_ : 0 < S_.numel

variable [Facts]

def fn_part1 {F : FTy → Type} [FloatOps F] (main_v13 : IVec S_ 1) (main_v16 : IVec S16x64x128x128 1) : IVec S_ 1 :=
  let main_c_5 : IVec S_ 1 := constantI S_ 1 1#1
  let main_v17 : IVec S_ 1 := (fun x v => Host.reduce IntOp.andi x v reducesTo_S16x64x128x128_S_d0_1_2_3 h_S_) main_v16 main_c_5
  let main_v18 : IVec S_ 1 := andi main_v13 main_v17
  main_v18

def fn {F : FTy → Type} [FloatOps F] (main_arg0 : FVec F S16x64x128x128 .f32) (main_arg1 : FVec F S16x64x128x128 .f32) (main_arg2 : FVec F S16x64x128x128 .f32) (main_arg3 : FVec F S16x64x128x128 .f32) (main_arg4 : IVec S4 32) : IVec S_ 1 :=
  let main_v0 : FVec F S16x64x128x128 .f32 := Host.absf main_arg0
  let main_cst : FVec F S_ .f32 := constant S_ .f32 0x7F800000#32
  let main_v1 : FVec F S16x64x128x128 .f32 := broadcastInDim S16x64x128x128 ![] bcast_S_S16x64x128x128 main_cst
  let main_v2 : IVec S16x64x128x128 1 := cmpf .olt main_v0 main_v1
  let main_c : IVec S_ 1 := constantI S_ 1 1#1
  let main_v3 : IVec S_ 1 := (fun x v => Host.reduce IntOp.andi x v reducesTo_S16x64x128x128_S_d0_1_2_3 h_S_) main_v2 main_c
  let main_v4 : FVec F S16x64x128x128 .f32 := Host.absf main_arg1
  let main_cst_0 : FVec F S_ .f32 := constant S_ .f32 0x7F800000#32
  let main_v5 : FVec F S16x64x128x128 .f32 := broadcastInDim S16x64x128x128 ![] bcast_S_S16x64x128x128 main_cst_0
  let main_v6 : IVec S16x64x128x128 1 := cmpf .olt main_v4 main_v5
  let main_c_1 : IVec S_ 1 := constantI S_ 1 1#1
  let main_v7 : IVec S_ 1 := (fun x v => Host.reduce IntOp.andi x v reducesTo_S16x64x128x128_S_d0_1_2_3 h_S_) main_v6 main_c_1
  let main_v8 : IVec S_ 1 := andi main_v3 main_v7
  let main_v9 : FVec F S16x64x128x128 .f32 := Host.absf main_arg2
  let main_cst_2 : FVec F S_ .f32 := constant S_ .f32 0x7F800000#32
  let main_v10 : FVec F S16x64x128x128 .f32 := broadcastInDim S16x64x128x128 ![] bcast_S_S16x64x128x128 main_cst_2
  let main_v11 : IVec S16x64x128x128 1 := cmpf .olt main_v9 main_v10
  let main_c_3 : IVec S_ 1 := constantI S_ 1 1#1
  let main_v12 : IVec S_ 1 := (fun x v => Host.reduce IntOp.andi x v reducesTo_S16x64x128x128_S_d0_1_2_3 h_S_) main_v11 main_c_3
  let main_v13 : IVec S_ 1 := andi main_v8 main_v12
  let main_v14 : FVec F S16x64x128x128 .f32 := Host.absf main_arg3
  let main_cst_4 : FVec F S_ .f32 := constant S_ .f32 0x7F800000#32
  let main_v15 : FVec F S16x64x128x128 .f32 := broadcastInDim S16x64x128x128 ![] bcast_S_S16x64x128x128 main_cst_4
  let main_v16 : IVec S16x64x128x128 1 := cmpf .olt main_v14 main_v15
  fn_part1 (F := F) main_v13 main_v16
-- ==== Kernel.lean ====
abbrev S16x64x128x128 : Shape := ⟨4, ![16, 64, 128, 128]⟩
abbrev S4 : Shape := ⟨1, ![4]⟩
abbrev S1024x128x128 : Shape := ⟨3, ![1024, 128, 128]⟩
abbrev S1024x256x128 : Shape := ⟨3, ![1024, 256, 128]⟩
abbrev S16x128x128 : Shape := ⟨3, ![16, 128, 128]⟩
abbrev S16x256x128 : Shape := ⟨3, ![16, 256, 128]⟩
abbrev S16x128x1x128 : Shape := ⟨4, ![16, 128, 1, 128]⟩
abbrev S16x128x2x128 : Shape := ⟨4, ![16, 128, 2, 128]⟩
abbrev S_ : Shape := ⟨0, ![]⟩
abbrev S1024x256x128x1 : Shape := ⟨4, ![1024, 256, 128, 1]⟩
abbrev S1024x256x128x2 : Shape := ⟨4, ![1024, 256, 128, 2]⟩
abbrev S1024x256x256 : Shape := ⟨3, ![1024, 256, 256]⟩
abbrev S16x64x256x256 : Shape := ⟨4, ![16, 64, 256, 256]⟩

abbrev nBuf : Space → Nat
  | .hbm => 24
  | .vmem => 12
  | .smem => 0
  | _ => 0

abbrev bufTy : (tb : Table) → Fin (tcTables nBuf tb) → BufTy
  | .hbm, ⟨0, _⟩ => ⟨S16x64x128x128, .f32⟩
  | .hbm, ⟨1, _⟩ => ⟨S16x64x128x128, .f32⟩
  | .hbm, ⟨2, _⟩ => ⟨S16x64x128x128, .f32⟩
  | .hbm, ⟨3, _⟩ => ⟨S16x64x128x128, .f32⟩
  | .hbm, ⟨4, _⟩ => ⟨S4, .i32⟩
  | .hbm, ⟨5, _⟩ => ⟨S1024x128x128, .f32⟩
  | .hbm, ⟨6, _⟩ => ⟨S1024x128x128, .f32⟩
  | .hbm, ⟨7, _⟩ => ⟨S1024x128x128, .f32⟩
  | .hbm, ⟨8, _⟩ => ⟨S1024x128x128, .f32⟩
  | .hbm, ⟨9, _⟩ => ⟨S1024x256x128, .f32⟩
  | .hbm, ⟨10, _⟩ => ⟨S1024x256x128, .f32⟩
  | .hbm, ⟨11, _⟩ => ⟨S1024x256x128, .f32⟩
  | .hbm, ⟨12, _⟩ => ⟨S_, .f32⟩
  | .hbm, ⟨13, _⟩ => ⟨S1024x256x128, .f32⟩
  | .hbm, ⟨14, _⟩ => ⟨S1024x256x128, .f32⟩
  | .hbm, ⟨15, _⟩ => ⟨S1024x256x128, .f32⟩
  | .hbm, ⟨16, _⟩ => ⟨S_, .f32⟩
  | .hbm, ⟨17, _⟩ => ⟨S1024x256x128, .f32⟩
  | .hbm, ⟨18, _⟩ => ⟨S1024x256x128, .f32⟩
  | .hbm, ⟨19, _⟩ => ⟨S1024x256x128x1, .f32⟩
  | .hbm, ⟨20, _⟩ => ⟨S1024x256x128x1, .f32⟩
  | .hbm, ⟨21, _⟩ => ⟨S1024x256x128x2, .f32⟩
  | .hbm, ⟨22, _⟩ => ⟨S1024x256x256, .f32⟩
  | .hbm, ⟨23, _⟩ => ⟨S16x64x256x256, .f32⟩
  | .local _ .vmem, ⟨0, _⟩ => ⟨S16x128x128, .f32⟩
  | .local _ .vmem, ⟨1, _⟩ => ⟨S16x128x128, .f32⟩
  | .local _ .vmem, ⟨2, _⟩ => ⟨S16x128x128, .f32⟩
  | .local _ .vmem, ⟨3, _⟩ => ⟨S16x128x128, .f32⟩
  | .local _ .vmem, ⟨4, _⟩ => ⟨S16x128x128, .f32⟩
  | .local _ .vmem, ⟨5, _⟩ => ⟨S16x128x128, .f32⟩
  | .local _ .vmem, ⟨6, _⟩ => ⟨S16x128x128, .f32⟩
  | .local _ .vmem, ⟨7, _⟩ => ⟨S16x128x128, .f32⟩
  | .local _ .vmem, ⟨8, _⟩ => ⟨S16x256x128, .f32⟩
  | .local _ .vmem, ⟨9, _⟩ => ⟨S16x256x128, .f32⟩
  | .local _ .vmem, ⟨10, _⟩ => ⟨S16x256x128, .f32⟩
  | .local _ .vmem, ⟨11, _⟩ => ⟨S16x256x128, .f32⟩
  | _, _ => ⟨S16x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x64x128x128_S1024x128x128 : S16x64x128x128.ShapeCasts S1024x128x128
  inb_S16x128x128_S16x128x128_0_0_0 : ∀ a, (![0, 0, 0] : Fin 3 → Nat) a + S16x128x128.size a ≤ S16x128x128.size a
  h_S16x128x128 : 0 < S16x128x128.numel
  shapeCasts_S16x128x128_S16x128x128 : S16x128x128.ShapeCasts S16x128x128
  shapeCasts_S16x128x128_S16x128x1x128 : S16x128x128.ShapeCasts S16x128x1x128
  concatenates_S16x128x1x128_S16x128x1x128_S16x128x2x128_d2 : Shape.Concatenates [S16x128x1x128, S16x128x1x128] S16x128x2x128 2
  shapeCasts_S16x128x2x128_S16x256x128 : S16x128x2x128.ShapeCasts S16x256x128
  inb_S16x256x128_S16x256x128_0_0_0 : ∀ a, (![0, 0, 0] : Fin 3 → Nat) a + S16x256x128.size a ≤ S16x256x128.size a
  h_S16x256x128 : 0 < S16x256x128.numel
  bcast_S_S1024x256x128 : S_.BroadcastsInDim S1024x256x128 (![] : Fin 0 → Fin S1024x256x128.rank)
  bcast_S1024x256x128_S1024x256x128x1_0_1_2 : S1024x256x128.BroadcastsInDim S1024x256x128x1 (![0, 1, 2] : Fin 3 → Fin S1024x256x128x1.rank)
  concatenates_S1024x256x128x1_S1024x256x128x1_S1024x256x128x2_d3 : Shape.Concatenates [S1024x256x128x1, S1024x256x128x1] S1024x256x128x2 3
  shapeCasts_S1024x256x128x2_S1024x256x256 : S1024x256x128x2.ShapeCasts S1024x256x256
  shapeCasts_S1024x256x256_S16x64x256x256 : S1024x256x256.ShapeCasts S16x64x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x128.size a ≤ S1024x128x128.size a
  hwx0_0 : ∀ i : grid0.Coords, EltTy.bits .f32 = 32 ∨ (Rect.block (s := S1024x128x128) S16x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x128.size a ≤ S1024x128x128.size a
  hwx0_1 : ∀ i : grid0.Coords, EltTy.bits .f32 = 32 ∨ (Rect.block (s := S1024x128x128) S16x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128x128.size a ≤ S1024x128x128.size a
  hwx0_2 : ∀ i : grid0.Coords, EltTy.bits .f32 = 32 ∨ (Rect.block (s := S1024x128x128) S16x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128x128.size a ≤ S1024x128x128.size a
  hwx0_3 : ∀ i : grid0.Coords, EltTy.bits .f32 = 32 ∨ (Rect.block (s := S1024x128x128) S16x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256x128.size a ≤ S1024x256x128.size a
  hwx0_4 : ∀ i : grid0.Coords, EltTy.bits .f32 = 32 ∨ (Rect.block (s := S1024x256x128) S16x256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x256x128.size a ≤ S1024x256x128.size a
  hwx0_5 : ∀ i : grid0.Coords, EltTy.bits .f32 = 32 ∨ (Rect.block (s := S1024x256x128) S16x256x128.size (cc0_transform_5 i) (hinb0_5 i)).WholeWords (EltTy.packing .f32)

variable [Facts₀]

abbrev win0_0 : Pipeline.Window sig grid0 :=
  Pipeline.Window.ofSpec (Memref.whole main_v0) S16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S16x256x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S16x256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x64x128x128 : Shape := ⟨4, ![16, 64, 128, 128]⟩
abbrev S4 : Shape := ⟨1, ![4]⟩
abbrev S_ : Shape := ⟨0, ![]⟩
abbrev S16x64x128x128x1 : Shape := ⟨5, ![16, 64, 128, 128, 1]⟩
abbrev S16x64x128x128x2 : Shape := ⟨5, ![16, 64, 128, 128, 2]⟩
abbrev S16x64x128x256 : Shape := ⟨4, ![16, 64, 128, 256]⟩
abbrev S16x64x128x1x256 : Shape := ⟨5, ![16, 64, 128, 1, 256]⟩
abbrev S16x64x128x2x256 : Shape := ⟨5, ![16, 64, 128, 2, 256]⟩
abbrev S16x64x256x256 : Shape := ⟨4, ![16, 64, 256, 256]⟩

abbrev nBuf : Space → Nat
  | .hbm => 41
  | .vmem => 0
  | .smem => 0
  | _ => 0

abbrev bufTy : (tb : Table) → Fin (tcTables nBuf tb) → BufTy
  | .hbm, ⟨0, _⟩ => ⟨S16x64x128x128, .f32⟩
  | .hbm, ⟨1, _⟩ => ⟨S16x64x128x128, .f32⟩
  | .hbm, ⟨2, _⟩ => ⟨S16x64x128x128, .f32⟩
  | .hbm, ⟨3, _⟩ => ⟨S16x64x128x128, .f32⟩
  | .hbm, ⟨4, _⟩ => ⟨S4, .i32⟩
  | .hbm, ⟨5, _⟩ => ⟨S16x64x128x128, .f32⟩
  | .hbm, ⟨6, _⟩ => ⟨S_, .f32⟩
  | .hbm, ⟨7, _⟩ => ⟨S16x64x128x128, .f32⟩
  | .hbm, ⟨8, _⟩ => ⟨S16x64x128x128, .f32⟩
  | .hbm, ⟨9, _⟩ => ⟨S16x64x128x128, .f32⟩
  | .hbm, ⟨10, _⟩ => ⟨S_, .f32⟩
  | .hbm, ⟨11, _⟩ => ⟨S16x64x128x128, .f32⟩
  | .hbm, ⟨12, _⟩ => ⟨S16x64x128x128, .f32⟩
  | .hbm, ⟨13, _⟩ => ⟨S16x64x128x128x1, .f32⟩
  | .hbm, ⟨14, _⟩ => ⟨S16x64x128x128x1, .f32⟩
  | .hbm, ⟨15, _⟩ => ⟨S16x64x128x128x2, .f32⟩
  | .hbm, ⟨16, _⟩ => ⟨S16x64x128x256, .f32⟩
  | .hbm, ⟨17, _⟩ => ⟨S16x64x128x128, .f32⟩
  | .hbm, ⟨18, _⟩ => ⟨S_, .f32⟩
  | .hbm, ⟨19, _⟩ => ⟨S16x64x128x128, .f32⟩
  | .hbm, ⟨20, _⟩ => ⟨S16x64x128x128, .f32⟩
  | .hbm, ⟨21, _⟩ => ⟨S16x64x128x128, .f32⟩
  | .hbm, ⟨22, _⟩ => ⟨S_, .f32⟩
  | .hbm, ⟨23, _⟩ => ⟨S16x64x128x128, .f32⟩
  | .hbm, ⟨24, _⟩ => ⟨S16x64x128x128, .f32⟩
  | .hbm, ⟨25, _⟩ => ⟨S16x64x128x128x1, .f32⟩
  | .hbm, ⟨26, _⟩ => ⟨S16x64x128x128x1, .f32⟩
  | .hbm, ⟨27, _⟩ => ⟨S16x64x128x128x2, .f32⟩
  | .hbm, ⟨28, _⟩ => ⟨S16x64x128x256, .f32⟩
  | .hbm, ⟨29, _⟩ => ⟨S16x64x128x256, .f32⟩
  | .hbm, ⟨30, _⟩ => ⟨S_, .f32⟩
  | .hbm, ⟨31, _⟩ => ⟨S16x64x128x256, .f32⟩
  | .hbm, ⟨32, _⟩ => ⟨S16x64x128x256, .f32⟩
  | .hbm, ⟨33, _⟩ => ⟨S16x64x128x256, .f32⟩
  | .hbm, ⟨34, _⟩ => ⟨S_, .f32⟩
  | .hbm, ⟨35, _⟩ => ⟨S16x64x128x256, .f32⟩
  | .hbm, ⟨36, _⟩ => ⟨S16x64x128x256, .f32⟩
  | .hbm, ⟨37, _⟩ => ⟨S16x64x128x1x256, .f32⟩
  | .hbm, ⟨38, _⟩ => ⟨S16x64x128x1x256, .f32⟩
  | .hbm, ⟨39, _⟩ => ⟨S16x64x128x2x256, .f32⟩
  | .hbm, ⟨40, _⟩ => ⟨S16x64x256x256, .f32⟩
  | _, _ => ⟨S16x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  bcast_S_S16x64x128x128 : S_.BroadcastsInDim S16x64x128x128 (![] : Fin 0 → Fin S16x64x128x128.rank)
  bcast_S16x64x128x128_S16x64x128x128x1_0_1_2_3 : S16x64x128x128.BroadcastsInDim S16x64x128x128x1 (![0, 1, 2, 3] : Fin 4 → Fin S16x64x128x128x1.rank)
  concatenates_S16x64x128x128x1_S16x64x128x128x1_S16x64x128x128x2_d4 : Shape.Concatenates [S16x64x128x128x1, S16x64x128x128x1] S16x64x128x128x2 4
  shapeCasts_S16x64x128x128x2_S16x64x128x256 : S16x64x128x128x2.ShapeCasts S16x64x128x256
  bcast_S_S16x64x128x256 : S_.BroadcastsInDim S16x64x128x256 (![] : Fin 0 → Fin S16x64x128x256.rank)
  bcast_S16x64x128x256_S16x64x128x1x256_0_1_2_4 : S16x64x128x256.BroadcastsInDim S16x64x128x1x256 (![0, 1, 2, 4] : Fin 4 → Fin S16x64x128x1x256.rank)
  concatenates_S16x64x128x1x256_S16x64x128x1x256_S16x64x128x2x256_d3 : Shape.Concatenates [S16x64x128x1x256, S16x64x128x1x256] S16x64x128x2x256 3
  shapeCasts_S16x64x128x2x256_S16x64x256x256 : S16x64x128x2x256.ShapeCasts S16x64x256x256

variable [Facts₀]

class Facts : Prop extends Facts₀ where

variable [Facts]
-- ==== Proof.HaarSpec.lean ====
/-
  The inverse 2-D Haar transform, as mathematics. One 1-D inverse Haar step takes an approximation
  coefficient `a` and a detail coefficient `d` to two neighbouring samples: the even one `(a + d) · s`
  and the odd one `(a - d) · s`, with `s` the float nearest `1/√2`. The 2-D inverse applies the
  step along both image axes to the four sub-bands LL, LH, HL, HH: output pixel `(y, z)` depends only
  on the four coefficients at `(y / 2, z / 2)` and on the parities of `y` and `z`.
  The step can be applied rows-first or columns-first. Over the reals the two orders agree, because
  each of the four parity cases is the same signed sum `(±LL ± LH ± HL ± HH) · s · s`
  (`haarStep_comm`); on the extended reals this needs the coefficients and `s` finite.
-/
import Idealize.ShloMosaic.PureOps.Ideal
import Idealize.ShloMosaic.Lib.ValueIdx

noncomputable section

namespace Cert.Haar

open Idealize.ShloMosaic Idealize.ShloMosaic.ValueIdx

/-- The scale of one Haar step: the binary32 value nearest `1/√2`, read as an extended real. -/
def scale : EReal := Ideal.ofBits .f32 0x3F3504F3#32

/-- One inverse Haar step at the sample of position `pos`: the even sample is `(a + d) · s`, the odd
    one `(a - d) · s`. -/
def haarStep (s : EReal) (pos : Nat) (a d : EReal) : EReal :=
  if pos % 2 = 0 then (a + d) * s else (a - d) * s

theorem haarStep_even (s : EReal) (pos : Nat) (a d : EReal) (h : pos % 2 = 0) :
    haarStep s pos a d = (a + d) * s := if_pos h

theorem haarStep_odd (s : EReal) (pos : Nat) (a d : EReal) (h : ¬ pos % 2 = 0) :
    haarStep s pos a d = (a - d) * s := if_neg h

/-- The step only looks at the parity of the position. -/
theorem haarStep_congr (s : EReal) (pos pos' : Nat) (a d : EReal) (h : pos % 2 = pos' % 2) :
    haarStep s pos a d = haarStep s pos' a d := by
  unfold haarStep; rw [h]

/-- Rows first then columns equals columns first then rows, on real coefficients with a real scale:
    in each of the four parity cases both sides are `(±a ± b ± c ± d) · s · s` with the same signs. -/
theorem haarStep_comm (s a b c d : ℝ) (y z : Nat) :
    haarStep (s : EReal) z (haarStep (s : EReal) y (a : EReal) (c : EReal)) (haarStep (s : EReal) y (b : EReal) (d : EReal))
      = haarStep (s : EReal) y (haarStep (s : EReal) z (a : EReal) (b : EReal)) (haarStep (s : EReal) z (c : EReal) (d : EReal)) := by
  unfold haarStep
  by_cases hy : y % 2 = 0 <;> by_cases hz : z % 2 = 0 <;>
    simp only [hy, hz, if_true, if_false, ← EReal.coe_add, ← EReal.coe_sub, ← EReal.coe_mul] <;>
    exact congrArg _ (by ring)

/-- The scale is a real number (a normal binary32 value, neither infinity). -/
theorem scale_real : ∃ r : ℝ, scale = (r : EReal) := by
  have htop : scale ≠ ⊤ := by unfold scale; simp [Ideal.ofBits, Ideal.ieee, -EReal.coe_mul]
  have hbot : scale ≠ ⊥ := by unfold scale; simp [Ideal.ofBits, Ideal.ieee, -EReal.coe_mul]
  exact ⟨scale.toReal, (EReal.coe_toReal htop hbot).symm⟩

/-- The source pixel of output pixel `i`: same batch and channel, both image coordinates halved. -/
def src (i : (⟨4, ![16, 64, 256, 256]⟩ : Shape).Idx) : (⟨4, ![16, 64, 128, 128]⟩ : Shape).Idx :=
  ix4 (i 0) (i 1) ⟨(i 2).val / 2, by have h : (i 2).val < 256 := (i 2).isLt; omega⟩
    ⟨(i 3).val / 2, by have h : (i 3).val < 256 := (i 3).isLt; omega⟩

/-- The reconstructed image, rows first: along the row axis pair (LL, HL) and (LH, HH), then along the
    column axis pair the two results. -/
def idwtRowsFirst (ll lh hl hh : (⟨4, ![16, 64, 128, 128]⟩ : Shape).Idx → EReal) :
    (⟨4, ![16, 64, 256, 256]⟩ : Shape).Idx → EReal := fun i =>
  haarStep scale (i 3).val (haarStep scale (i 2).val (ll (src i)) (hl (src i)))
    (haarStep scale (i 2).val (lh (src i)) (hh (src i)))

/-- The reconstructed image, columns first: along the column axis pair (LL, LH) and (HL, HH), then along
    the row axis pair the two results. -/
def idwtColsFirst (ll lh hl hh : (⟨4, ![16, 64, 128, 128]⟩ : Shape).Idx → EReal) :
    (⟨4, ![16, 64, 256, 256]⟩ : Shape).Idx → EReal := fun i =>
  haarStep scale (i 2).val (haarStep scale (i 3).val (ll (src i)) (lh (src i)))
    (haarStep scale (i 3).val (hl (src i)) (hh (src i)))

/-- On sub-bands all of whose entries are real numbers the two orders give the same image. -/
theorem idwt_orders_agree (ll lh hl hh : (⟨4, ![16, 64, 128, 128]⟩ : Shape).Idx → EReal)
    (hll : ∀ k, ∃ r : ℝ, ll k = (r : EReal)) (hlh : ∀ k, ∃ r : ℝ, lh k = (r : EReal))
    (hhl : ∀ k, ∃ r : ℝ, hl k = (r : EReal)) (hhh : ∀ k, ∃ r : ℝ, hh k = (r : EReal)) :
    idwtColsFirst ll lh hl hh = idwtRowsFirst ll lh hl hh := by
  funext i
  obtain ⟨s, hs⟩ := scale_real
  obtain ⟨a, ha⟩ := hll (src i)
  obtain ⟨b, hb⟩ := hlh (src i)
  obtain ⟨c, hc⟩ := hhl (src i)
  obtain ⟨d, hd⟩ := hhh (src i)
  unfold idwtColsFirst idwtRowsFirst
  rw [hs, ha, hb, hc, hd]
  exact (haarStep_comm s a b c d (i 2).val (i 3).val).symm

end Cert.Haar

end
-- ==== Proof.Finite.lean ====
/-
  What the precondition gives. It says of each of the four sub-band arrays that every entry `x` has
  `|x| < +∞`, the absolute value being `max x (-x)` on the extended reals; the four statements are joined
  by `and`. An extended real with `max x (-x) < ⊤` is neither `⊤` nor `⊥` (for `⊥`, `-⊥ = ⊤`), so it is a
  real number.
-/
import proofs.«136151_j6433861009800_2_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Haar

open Idealize.ShloMosaic Idealize.ShloMosaic.ValueIdx

/-- The pattern of `+∞` denotes `⊤`. -/
theorem ofBits_inf : Ideal.ofBits .f32 0x7F800000#32 = ⊤ := by
  simp [Ideal.ofBits, Ideal.ieee]

/-- An extended real whose absolute value is below `+∞` is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

instance : Subsingleton (⟨0, ![]⟩ : Shape).Idx := ⟨fun a b => funext fun d => d.elim0⟩

/-- One array all of whose entries pass the test `|x| < +∞` holds real numbers only. -/
theorem all_real (x : FVec Ideal (⟨4, ![16, 64, 128, 128]⟩ : Shape) .f32)
    (hb : (⟨0, ![]⟩ : Shape).BroadcastsInDim ⟨4, ![16, 64, 128, 128]⟩ (![] : Fin 0 → Fin 4))
    (hr : (⟨4, ![16, 64, 128, 128]⟩ : Shape).ReducesTo [0, 1, 2, 3] ⟨0, ![]⟩) (hu : 0 < (⟨0, ![]⟩ : Shape).numel)
    (init : IVec (⟨0, ![]⟩ : Shape) 1)
    (e : Host.reduce IntOp.andi (cmpf .olt (Host.absf x)
          (broadcastInDim (⟨4, ![16, 64, 128, 128]⟩ : Shape) ![] hb (constant (F := Ideal) (⟨0, ![]⟩ : Shape) .f32 0x7F800000#32)))
        init hr hu ix0 = 1#1) (k : (⟨4, ![16, 64, 128, 128]⟩ : Shape).Idx) : ∃ r : ℝ, x k = (r : EReal) := by
  have hk := Host.reduce_andi_all _ init hr hu ix0 e k
  exact real_of_abs_lt_inf (x k) hk

/-- The precondition, read: every entry of each of the four sub-bands is a real number. -/
theorem reals_of_pre [Cert.Pre_finite_inputs.Facts]
    (x0 x1 x2 x3 : FVec Ideal (⟨4, ![16, 64, 128, 128]⟩ : Shape) .f32) (x4 : IVec (⟨1, ![4]⟩ : Shape) 32)
    (h : Cert.Pre_finite_inputs.fn (F := Ideal) x0 x1 x2 x3 x4 = fun _ => 1#1) :
    (∀ k, ∃ r : ℝ, x0 k = (r : EReal)) ∧ (∀ k, ∃ r : ℝ, x1 k = (r : EReal))
      ∧ (∀ k, ∃ r : ℝ, x2 k = (r : EReal)) ∧ (∀ k, ∃ r : ℝ, x3 k = (r : EReal)) := by
  have e := congrFun h ix0
  dsimp only [Cert.Pre_finite_inputs.fn, Cert.Pre_finite_inputs.fn_part1] at e
  change IntOp.andi (IntOp.andi (IntOp.andi _ _) _) _ = 1#1 at e
  rw [IntOp.andi_eq_one, IntOp.andi_eq_one, IntOp.andi_eq_one] at e
  obtain ⟨⟨⟨e0, e1⟩, e2⟩, e3⟩ := e
  exact ⟨all_real x0 _ _ _ _ e0, all_real x1 _ _ _ _ e1, all_real x2 _ _ _ _ e2, all_real x3 _ _ _ _ e3⟩

end Cert.Haar

end
-- ==== Proof.Layout.lean ====
/-
  The five re-layouts this transform is made of, each read at one index.
  An interleave of two arrays along an axis is spelt, in all its three occurrences, as: give each array
  a new unit axis right after the interleaved one, join the two along that new axis (extent 2), and
  merge the axis with the new one (extents n and 2 become 2n). Position `p` of the merged axis is then
  entry `p / 2` of the first array when `p` is even and of the second when `p` is odd: the merged
  row-major position `(q · 2 + r)` is `p` exactly for `q = p / 2`, `r = p % 2`.
  The other re-layout merges the batch and channel axes (extents 16 and 64 into 1024), or splits them
  again: `(b, c)` is position `b · 64 + c`.
-/
import Idealize.ShloMosaic.Lib.Pipeline.Value
import Idealize.ShloMosaic.Lib.ValueIdx

noncomputable section

namespace Cert.Haar

open Idealize.ShloMosaic Idealize.ShloMosaic.ValueIdx

variable {α : Type}

/-- Two [16,128,128] blocks interleaved along the row axis into a [16,256,128] block: row `y` is row
    `y / 2` of the first block for even `y`, of the second for odd `y`. -/
theorem rowInterleave_block_apply (e o : (⟨3, ![16, 128, 128]⟩ : Shape).Idx → α)
    (h1 : (⟨3, ![16, 128, 128]⟩ : Shape).ShapeCasts ⟨4, ![16, 128, 1, 128]⟩)
    (hc : Shape.Concatenates [(⟨4, ![16, 128, 1, 128]⟩ : Shape), ⟨4, ![16, 128, 1, 128]⟩] ⟨4, ![16, 128, 2, 128]⟩ 2)
    (h2 : (⟨4, ![16, 128, 2, 128]⟩ : Shape).ShapeCasts ⟨3, ![16, 256, 128]⟩)
    (j : (⟨3, ![16, 256, 128]⟩ : Shape).Idx) (hq : (j 1).val / 2 < 128) :
    shapeCast (⟨3, ![16, 256, 128]⟩ : Shape) (concatenate (⟨4, ![16, 128, 2, 128]⟩ : Shape) 2
        [⟨(⟨4, ![16, 128, 1, 128]⟩ : Shape), shapeCast (⟨4, ![16, 128, 1, 128]⟩ : Shape) e h1⟩,
         ⟨(⟨4, ![16, 128, 1, 128]⟩ : Shape), shapeCast (⟨4, ![16, 128, 1, 128]⟩ : Shape) o h1⟩] hc) h2 j
      = if (j 1).val % 2 = 0 then e (ix3 (j 0) ⟨(j 1).val / 2, hq⟩ (j 2)) else o (ix3 (j 0) ⟨(j 1).val / 2, hq⟩ (j 2)) := by
  have hj0 : (j 0).val < 16 := (j 0).isLt
  have hj1 : (j 1).val < 256 := (j 1).isLt
  have hj2 : (j 2).val < 128 := (j 2).isLt
  refine (shapeCast_apply _ h2 j (ix4 (j 0) ⟨(j 1).val / 2, hq⟩ ⟨(j 1).val % 2, by omega⟩ (j 2)) ?_).trans ?_
  · rewrite [Shape.rowMajor_val_four, Shape.rowMajor_val_three]
    show (((j 0).val * 128 + (j 1).val / 2) * 2 + (j 1).val % 2) * 128 + (j 2).val = ((j 0).val * 256 + (j 1).val) * 128 + (j 2).val
    omega
  by_cases hp : (j 1).val % 2 = 0
  · rw [if_pos hp]
    refine (concatenate_pair_apply_left _ _ _ hc _ rfl (ix4 (j 0) ⟨(j 1).val / 2, hq⟩ (0 : Fin 1) (j 2)) ?_).trans ?_
    · intro b
      match b with
      | ⟨0, _⟩ => rfl
      | ⟨1, _⟩ => rfl
      | ⟨2, _⟩ => show (0 : Nat) = (j 1).val % 2; omega
      | ⟨3, _⟩ => rfl
    refine shapeCast_apply _ h1 _ (ix3 (j 0) ⟨(j 1).val / 2, hq⟩ (j 2)) ?_
    rewrite [Shape.rowMajor_val_three, Shape.rowMajor_val_four]
    show ((j 0).val * 128 + (j 1).val / 2) * 128 + (j 2).val = (((j 0).val * 128 + (j 1).val / 2) * 1 + 0) * 128 + (j 2).val
    omega
  · rw [if_neg hp]
    refine (concatenate_pair_apply_right _ _ _ hc _ rfl rfl (ix4 (j 0) ⟨(j 1).val / 2, hq⟩ (0 : Fin 1) (j 2)) ?_ ?_).trans ?_
    · intro b
      match b with
      | ⟨0, _⟩ => intro _; rfl
      | ⟨1, _⟩ => intro _; rfl
      | ⟨2, _⟩ => intro h; exact absurd (Fin.ext rfl) h
      | ⟨3, _⟩ => intro _; rfl
    · show (0 : Nat) + 1 = (j 1).val % 2; omega
    refine shapeCast_apply _ h1 _ (ix3 (j 0) ⟨(j 1).val / 2, hq⟩ (j 2)) ?_
    rewrite [Shape.rowMajor_val_three, Shape.rowMajor_val_four]
    show ((j 0).val * 128 + (j 1).val / 2) * 128 + (j 2).val = (((j 0).val * 128 + (j 1).val / 2) * 1 + 0) * 128 + (j 2).val
    omega

/-- Merging the batch and channel axes: entry `(b · 64 + c, r, w)` of the merged array is entry
    `(b, c, r, w)` of the original. -/
theorem mergeBatch_apply (x : (⟨4, ![16, 64, 128, 128]⟩ : Shape).Idx → α)
    (h : (⟨4, ![16, 64, 128, 128]⟩ : Shape).ShapeCasts ⟨3, ![1024, 128, 128]⟩)
    (k : (⟨3, ![1024, 128, 128]⟩ : Shape).Idx) (hb : (k 0).val / 64 < 16) (hc : (k 0).val % 64 < 64) :
    shapeCast (⟨3, ![1024, 128, 128]⟩ : Shape) x h k = x (ix4 ⟨(k 0).val / 64, hb⟩ ⟨(k 0).val % 64, hc⟩ (k 1) (k 2)) := by
  have hk0 : (k 0).val < 1024 := (k 0).isLt
  have hk1 : (k 1).val < 128 := (k 1).isLt
  have hk2 : (k 2).val < 128 := (k 2).isLt
  refine shapeCast_apply _ h k _ ?_
  rewrite [Shape.rowMajor_val_four, Shape.rowMajor_val_three]
  show (((k 0).val / 64 * 64 + (k 0).val % 64) * 128 + (k 1).val) * 128 + (k 2).val = ((k 0).val * 128 + (k 1).val) * 128 + (k 2).val
  omega

/-- Two [1024,256,128] arrays interleaved along the column axis into [1024,256,256], the batch and
    channel axes then split: column `z` of image `(b, c)` is column `z / 2` of image `b · 64 + c` of the
    first array for even `z`, of the second for odd `z`. -/
theorem colInterleave_split_apply (e o : (⟨3, ![1024, 256, 128]⟩ : Shape).Idx → α)
    (hb : (⟨3, ![1024, 256, 128]⟩ : Shape).BroadcastsInDim ⟨4, ![1024, 256, 128, 1]⟩ (![0, 1, 2] : Fin 3 → Fin 4))
    (hc : Shape.Concatenates [(⟨4, ![1024, 256, 128, 1]⟩ : Shape), ⟨4, ![1024, 256, 128, 1]⟩] ⟨4, ![1024, 256, 128, 2]⟩ 3)
    (h1 : (⟨4, ![1024, 256, 128, 2]⟩ : Shape).ShapeCasts ⟨3, ![1024, 256, 256]⟩)
    (h2 : (⟨3, ![1024, 256, 256]⟩ : Shape).ShapeCasts ⟨4, ![16, 64, 256, 256]⟩)
    (i : (⟨4, ![16, 64, 256, 256]⟩ : Shape).Idx) (hbc : (i 0).val * 64 + (i 1).val < 1024) (hq : (i 3).val / 2 < 128) :
    shapeCast (⟨4, ![16, 64, 256, 256]⟩ : Shape) (shapeCast (⟨3, ![1024, 256, 256]⟩ : Shape)
        (concatenate (⟨4, ![1024, 256, 128, 2]⟩ : Shape) 3
          [⟨(⟨4, ![1024, 256, 128, 1]⟩ : Shape), broadcastInDim (⟨4, ![1024, 256, 128, 1]⟩ : Shape) ![0, 1, 2] hb e⟩,
           ⟨(⟨4, ![1024, 256, 128, 1]⟩ : Shape), broadcastInDim (⟨4, ![1024, 256, 128, 1]⟩ : Shape) ![0, 1, 2] hb o⟩] hc) h1) h2 i
      = if (i 3).val % 2 = 0 then e (ix3 ⟨(i 0).val * 64 + (i 1).val, hbc⟩ (i 2) ⟨(i 3).val / 2, hq⟩)
        else o (ix3 ⟨(i 0).val * 64 + (i 1).val, hbc⟩ (i 2) ⟨(i 3).val / 2, hq⟩) := by
  have hi0 : (i 0).val < 16 := (i 0).isLt
  have hi1 : (i 1).val < 64 := (i 1).isLt
  have hi2 : (i 2).val < 256 := (i 2).isLt
  have hi3 : (i 3).val < 256 := (i 3).isLt
  refine (shapeCast_apply _ h2 i (ix3 ⟨(i 0).val * 64 + (i 1).val, hbc⟩ (i 2) (i 3)) ?_).trans ?_
  · rewrite [Shape.rowMajor_val_three, Shape.rowMajor_val_four]
    show (((i 0).val * 64 + (i 1).val) * 256 + (i 2).val) * 256 + (i 3).val = (((i 0).val * 64 + (i 1).val) * 256 + (i 2).val) * 256 + (i 3).val
    rfl
  refine (shapeCast_apply _ h1 _ (ix4 ⟨(i 0).val * 64 + (i 1).val, hbc⟩ (i 2) ⟨(i 3).val / 2, hq⟩ ⟨(i 3).val % 2, by omega⟩) ?_).trans ?_
  · rewrite [Shape.rowMajor_val_four, Shape.rowMajor_val_three]
    show ((((i 0).val * 64 + (i 1).val) * 256 + (i 2).val) * 128 + (i 3).val / 2) * 2 + (i 3).val % 2 = (((i 0).val * 64 + (i 1).val) * 256 + (i 2).val) * 256 + (i 3).val
    omega
  by_cases hp : (i 3).val % 2 = 0
  · rw [if_pos hp]
    refine (concatenate_pair_apply_left _ _ _ hc _ rfl (ix4 ⟨(i 0).val * 64 + (i 1).val, hbc⟩ (i 2) ⟨(i 3).val / 2, hq⟩ (0 : Fin 1)) ?_).trans ?_
    · intro b
      match b with
      | ⟨0, _⟩ => rfl
      | ⟨1, _⟩ => rfl
      | ⟨2, _⟩ => rfl
      | ⟨3, _⟩ => show (0 : Nat) = (i 3).val % 2; omega
    refine broadcastInDim_apply _ hb e _ (ix3 ⟨(i 0).val * 64 + (i 1).val, hbc⟩ (i 2) ⟨(i 3).val / 2, hq⟩) fun a => ?_
    match a with
    | ⟨0, _⟩ => show (i 0).val * 64 + (i 1).val = if (1024 : Nat) = 1 then 0 else (i 0).val * 64 + (i 1).val; rw [if_neg (by decide)]
    | ⟨1, _⟩ => show (i 2).val = if (256 : Nat) = 1 then 0 else (i 2).val; rw [if_neg (by decide)]
    | ⟨2, _⟩ => show (i 3).val / 2 = if (128 : Nat) = 1 then 0 else (i 3).val / 2; rw [if_neg (by decide)]
  · rw [if_neg hp]
    refine (concatenate_pair_apply_right _ _ _ hc _ rfl rfl (ix4 ⟨(i 0).val * 64 + (i 1).val, hbc⟩ (i 2) ⟨(i 3).val / 2, hq⟩ (0 : Fin 1)) ?_ ?_).trans ?_
    · intro b
      match b with
      | ⟨0, _⟩ => intro _; rfl
      | ⟨1, _⟩ => intro _; rfl
      | ⟨2, _⟩ => intro _; rfl
      | ⟨3, _⟩ => intro h; exact absurd (Fin.ext rfl) h
    · show (0 : Nat) + 1 = (i 3).val % 2; omega
    refine broadcastInDim_apply _ hb o _ (ix3 ⟨(i 0).val * 64 + (i 1).val, hbc⟩ (i 2) ⟨(i 3).val / 2, hq⟩) fun a => ?_
    match a with
    | ⟨0, _⟩ => show (i 0).val * 64 + (i 1).val = if (1024 : Nat) = 1 then 0 else (i 0).val * 64 + (i 1).val; rw [if_neg (by decide)]
    | ⟨1, _⟩ => show (i 2).val = if (256 : Nat) = 1 then 0 else (i 2).val; rw [if_neg (by decide)]
    | ⟨2, _⟩ => show (i 3).val / 2 = if (128 : Nat) = 1 then 0 else (i 3).val / 2; rw [if_neg (by decide)]

/-- Two [16,64,128,128] arrays interleaved along the column axis into [16,64,128,256]: column `z` is
    column `z / 2` of the first array for even `z`, of the second for odd `z`. -/
theorem colInterleave_apply (e o : (⟨4, ![16, 64, 128, 128]⟩ : Shape).Idx → α)
    (hb : (⟨4, ![16, 64, 128, 128]⟩ : Shape).BroadcastsInDim ⟨5, ![16, 64, 128, 128, 1]⟩ (![0, 1, 2, 3] : Fin 4 → Fin 5))
    (hc : Shape.Concatenates [(⟨5, ![16, 64, 128, 128, 1]⟩ : Shape), ⟨5, ![16, 64, 128, 128, 1]⟩] ⟨5, ![16, 64, 128, 128, 2]⟩ 4)
    (h1 : (⟨5, ![16, 64, 128, 128, 2]⟩ : Shape).ShapeCasts ⟨4, ![16, 64, 128, 256]⟩)
    (j : (⟨4, ![16, 64, 128, 256]⟩ : Shape).Idx) (hq : (j 3).val / 2 < 128) :
    shapeCast (⟨4, ![16, 64, 128, 256]⟩ : Shape)
        (concatenate (⟨5, ![16, 64, 128, 128, 2]⟩ : Shape) 4
          [⟨(⟨5, ![16, 64, 128, 128, 1]⟩ : Shape), broadcastInDim (⟨5, ![16, 64, 128, 128, 1]⟩ : Shape) ![0, 1, 2, 3] hb e⟩,
           ⟨(⟨5, ![16, 64, 128, 128, 1]⟩ : Shape), broadcastInDim (⟨5, ![16, 64, 128, 128, 1]⟩ : Shape) ![0, 1, 2, 3] hb o⟩] hc) h1 j
      = if (j 3).val % 2 = 0 then e (ix4 (j 0) (j 1) (j 2) ⟨(j 3).val / 2, hq⟩)
        else o (ix4 (j 0) (j 1) (j 2) ⟨(j 3).val / 2, hq⟩) := by
  have hj0 : (j 0).val < 16 := (j 0).isLt
  have hj1 : (j 1).val < 64 := (j 1).isLt
  have hj2 : (j 2).val < 128 := (j 2).isLt
  have hj3 : (j 3).val < 256 := (j 3).isLt
  refine (shapeCast_apply _ h1 j (ix5 (j 0) (j 1) (j 2) ⟨(j 3).val / 2, hq⟩ ⟨(j 3).val % 2, by omega⟩) ?_).trans ?_
  · rewrite [Shape.rowMajor_val_five, Shape.rowMajor_val_four]
    show ((((j 0).val * 64 + (j 1).val) * 128 + (j 2).val) * 128 + (j 3).val / 2) * 2 + (j 3).val % 2 = (((j 0).val * 64 + (j 1).val) * 128 + (j 2).val) * 256 + (j 3).val
    omega
  by_cases hp : (j 3).val % 2 = 0
  · rw [if_pos hp]
    refine (concatenate_pair_apply_left _ _ _ hc _ rfl (ix5 (j 0) (j 1) (j 2) ⟨(j 3).val / 2, hq⟩ (0 : Fin 1)) ?_).trans ?_
    · intro b
      match b with
      | ⟨0, _⟩ => rfl
      | ⟨1, _⟩ => rfl
      | ⟨2, _⟩ => rfl
      | ⟨3, _⟩ => rfl
      | ⟨4, _⟩ => show (0 : Nat) = (j 3).val % 2; omega
    refine broadcastInDim_apply _ hb e _ (ix4 (j 0) (j 1) (j 2) ⟨(j 3).val / 2, hq⟩) fun a => ?_
    match a with
    | ⟨0, _⟩ => show (j 0).val = if (16 : Nat) = 1 then 0 else (j 0).val; rw [if_neg (by decide)]
    | ⟨1, _⟩ => show (j 1).val = if (64 : Nat) = 1 then 0 else (j 1).val; rw [if_neg (by decide)]
    | ⟨2, _⟩ => show (j 2).val = if (128 : Nat) = 1 then 0 else (j 2).val; rw [if_neg (by decide)]
    | ⟨3, _⟩ => show (j 3).val / 2 = if (128 : Nat) = 1 then 0 else (j 3).val / 2; rw [if_neg (by decide)]
  · rw [if_neg hp]
    refine (concatenate_pair_apply_right _ _ _ hc _ rfl rfl (ix5 (j 0) (j 1) (j 2) ⟨(j 3).val / 2, hq⟩ (0 : Fin 1)) ?_ ?_).trans ?_
    · intro b
      match b with
      | ⟨0, _⟩ => intro _; rfl
      | ⟨1, _⟩ => intro _; rfl
      | ⟨2, _⟩ => intro _; rfl
      | ⟨3, _⟩ => intro _; rfl
      | ⟨4, _⟩ => intro h; exact absurd (Fin.ext rfl) h
    · show (0 : Nat) + 1 = (j 3).val % 2; omega
    refine broadcastInDim_apply _ hb o _ (ix4 (j 0) (j 1) (j 2) ⟨(j 3).val / 2, hq⟩) fun a => ?_
    match a with
    | ⟨0, _⟩ => show (j 0).val = if (16 : Nat) = 1 then 0 else (j 0).val; rw [if_neg (by decide)]
    | ⟨1, _⟩ => show (j 1).val = if (64 : Nat) = 1 then 0 else (j 1).val; rw [if_neg (by decide)]
    | ⟨2, _⟩ => show (j 2).val = if (128 : Nat) = 1 then 0 else (j 2).val; rw [if_neg (by decide)]
    | ⟨3, _⟩ => show (j 3).val / 2 = if (128 : Nat) = 1 then 0 else (j 3).val / 2; rw [if_neg (by decide)]

/-- Two [16,64,128,256] arrays interleaved along the row axis into [16,64,256,256]: row `y` is row
    `y / 2` of the first array for even `y`, of the second for odd `y`. -/
theorem rowInterleave_apply (e o : (⟨4, ![16, 64, 128, 256]⟩ : Shape).Idx → α)
    (hb : (⟨4, ![16, 64, 128, 256]⟩ : Shape).BroadcastsInDim ⟨5, ![16, 64, 128, 1, 256]⟩ (![0, 1, 2, 4] : Fin 4 → Fin 5))
    (hc : Shape.Concatenates [(⟨5, ![16, 64, 128, 1, 256]⟩ : Shape), ⟨5, ![16, 64, 128, 1, 256]⟩] ⟨5, ![16, 64, 128, 2, 256]⟩ 3)
    (h1 : (⟨5, ![16, 64, 128, 2, 256]⟩ : Shape).ShapeCasts ⟨4, ![16, 64, 256, 256]⟩)
    (i : (⟨4, ![16, 64, 256, 256]⟩ : Shape).Idx) (hq : (i 2).val / 2 < 128) :
    shapeCast (⟨4, ![16, 64, 256, 256]⟩ : Shape)
        (concatenate (⟨5, ![16, 64, 128, 2, 256]⟩ : Shape) 3
          [⟨(⟨5, ![16, 64, 128, 1, 256]⟩ : Shape), broadcastInDim (⟨5, ![16, 64, 128, 1, 256]⟩ : Shape) ![0, 1, 2, 4] hb e⟩,
           ⟨(⟨5, ![16, 64, 128, 1, 256]⟩ : Shape), broadcastInDim (⟨5, ![16, 64, 128, 1, 256]⟩ : Shape) ![0, 1, 2, 4] hb o⟩] hc) h1 i
      = if (i 2).val % 2 = 0 then e (ix4 (i 0) (i 1) ⟨(i 2).val / 2, hq⟩ (i 3))
        else o (ix4 (i 0) (i 1) ⟨(i 2).val / 2, hq⟩ (i 3)) := by
  have hi0 : (i 0).val < 16 := (i 0).isLt
  have hi1 : (i 1).val < 64 := (i 1).isLt
  have hi2 : (i 2).val < 256 := (i 2).isLt
  have hi3 : (i 3).val < 256 := (i 3).isLt
  refine (shapeCast_apply _ h1 i (ix5 (i 0) (i 1) ⟨(i 2).val / 2, hq⟩ ⟨(i 2).val % 2, by omega⟩ (i 3)) ?_).trans ?_
  · rewrite [Shape.rowMajor_val_five, Shape.rowMajor_val_four]
    show ((((i 0).val * 64 + (i 1).val) * 128 + (i 2).val / 2) * 2 + (i 2).val % 2) * 256 + (i 3).val = (((i 0).val * 64 + (i 1).val) * 256 + (i 2).val) * 256 + (i 3).val
    omega
  by_cases hp : (i 2).val % 2 = 0
  · rw [if_pos hp]
    refine (concatenate_pair_apply_left _ _ _ hc _ rfl (ix5 (i 0) (i 1) ⟨(i 2).val / 2, hq⟩ (0 : Fin 1) (i 3)) ?_).trans ?_
    · intro b
      match b with
      | ⟨0, _⟩ => rfl
      | ⟨1, _⟩ => rfl
      | ⟨2, _⟩ => rfl
      | ⟨3, _⟩ => show (0 : Nat) = (i 2).val % 2; omega
      | ⟨4, _⟩ => rfl
    refine broadcastInDim_apply _ hb e _ (ix4 (i 0) (i 1) ⟨(i 2).val / 2, hq⟩ (i 3)) fun a => ?_
    match a with
    | ⟨0, _⟩ => show (i 0).val = if (16 : Nat) = 1 then 0 else (i 0).val; rw [if_neg (by decide)]
    | ⟨1, _⟩ => show (i 1).val = if (64 : Nat) = 1 then 0 else (i 1).val; rw [if_neg (by decide)]
    | ⟨2, _⟩ => show (i 2).val / 2 = if (128 : Nat) = 1 then 0 else (i 2).val / 2; rw [if_neg (by decide)]
    | ⟨3, _⟩ => show (i 3).val = if (256 : Nat) = 1 then 0 else (i 3).val; rw [if_neg (by decide)]
  · rw [if_neg hp]
    refine (concatenate_pair_apply_right _ _ _ hc _ rfl rfl (ix5 (i 0) (i 1) ⟨(i 2).val / 2, hq⟩ (0 : Fin 1) (i 3)) ?_ ?_).trans ?_
    · intro b
      match b with
      | ⟨0, _⟩ => intro _; rfl
      | ⟨1, _⟩ => intro _; rfl
      | ⟨2, _⟩ => intro _; rfl
      | ⟨3, _⟩ => intro h; exact absurd (Fin.ext rfl) h
      | ⟨4, _⟩ => intro _; rfl
    · show (0 : Nat) + 1 = (i 2).val % 2; omega
    refine broadcastInDim_apply _ hb o _ (ix4 (i 0) (i 1) ⟨(i 2).val / 2, hq⟩ (i 3)) fun a => ?_
    match a with
    | ⟨0, _⟩ => show (i 0).val = if (16 : Nat) = 1 then 0 else (i 0).val; rw [if_neg (by decide)]
    | ⟨1, _⟩ => show (i 1).val = if (64 : Nat) = 1 then 0 else (i 1).val; rw [if_neg (by decide)]
    | ⟨2, _⟩ => show (i 2).val / 2 = if (128 : Nat) = 1 then 0 else (i 2).val / 2; rw [if_neg (by decide)]
    | ⟨3, _⟩ => show (i 3).val = if (256 : Nat) = 1 then 0 else (i 3).val; rw [if_neg (by decide)]

end Cert.Haar

end
-- ==== Proof.RowPass.lean ====
/-
  The row pass. The launched kernel works on the four sub-bands with batch and channel merged
  ([1024,128,128]), sixteen images per grid point. At a point it reads the four blocks, applies one
  inverse Haar step along the row axis to the pair (LL, HL) and to the pair (LH, HH), and writes the two
  results, rows interleaved, as blocks of two [1024,256,128] arrays. Each output block depends only on
  the input blocks of the same sixteen images, the blocks tile the arrays, so after the run each output
  array is the row pass of the whole merged inputs (`rowsLow`, `rowsHigh`).
-/
import proofs.«136151_j6433861009800_2_alg».proof.Proof.Gen.KernelIdeal.Frame
import proofs.«136151_j6433861009800_2_alg».proof.Proof.HaarSpec
import proofs.«136151_j6433861009800_2_alg».proof.Proof.Layout
import Idealize.ShloMosaic.Lib.Pipeline.Value
import Idealize.ShloMosaic.Lib.StableHlo.Run

noncomputable section

namespace Cert.KernelIdeal.RowPass

open Cert.KernelIdeal Cert.KernelIdeal.Gen Idealize.ShloMosaic Idealize.ShloMosaic.TcCoe Idealize.SL.Sem
open Idealize.ShloMosaic.ValueIdx Cert.Haar
open Idealize.ShloMosaic.Pipeline (Dat)

/-- One inverse Haar step along the row axis of merged arrays: row `y` of the result comes from row
    `y / 2` of the approximation `a` and the detail `d`. -/
def rowPass (a d : S1024x128x128.Idx → EReal) : S1024x256x128.Idx → EReal := fun k =>
  haarStep scale (k 1).val
    (a (ix3 (k 0) ⟨(k 1).val / 2, by have h : (k 1).val < 256 := (k 1).isLt; omega⟩ (k 2)))
    (d (ix3 (k 0) ⟨(k 1).val / 2, by have h : (k 1).val < 256 := (k 1).isLt; omega⟩ (k 2)))

/-! ## One block -/

/-- What the body stores in the first output block, read at an index: the row step of the LL and HL
    blocks. -/
theorem pay1_apply (b0 b2 : Vec Ideal S16x128x128 .f32) (j : S16x256x128.Idx) :
    k0_pay1 (F := Ideal) b0 b2 j
      = haarStep scale (j 1).val
          (b0 (ix3 (j 0) ⟨(j 1).val / 2, by have h : (j 1).val < 256 := (j 1).isLt; omega⟩ (j 2)))
          (b2 (ix3 (j 0) ⟨(j 1).val / 2, by have h : (j 1).val < 256 := (j 1).isLt; omega⟩ (j 2))) := by
  have hq : (j 1).val / 2 < 128 := by have h : (j 1).val < 256 := (j 1).isLt; omega
  unfold k0_pay1
  refine (rowInterleave_block_apply _ _ _ _ _ j hq).trans ?_
  simp only [shapeCast_self]
  rfl

/-- The same for the second output block: the row step of the LH and HH blocks. -/
theorem pay2_apply (b1 b3 : Vec Ideal S16x128x128 .f32) (j : S16x256x128.Idx) :
    k0_pay2 (F := Ideal) b1 b3 j
      = haarStep scale (j 1).val
          (b1 (ix3 (j 0) ⟨(j 1).val / 2, by have h : (j 1).val < 256 := (j 1).isLt; omega⟩ (j 2)))
          (b3 (ix3 (j 0) ⟨(j 1).val / 2, by have h : (j 1).val < 256 := (j 1).isLt; omega⟩ (j 2))) := by
  have hq : (j 1).val / 2 < 128 := by have h : (j 1).val < 256 := (j 1).isLt; omega
  unfold k0_pay2
  refine (rowInterleave_block_apply _ _ _ _ _ j hq).trans ?_
  simp only [shapeCast_self]
  rfl

/-- A block of the row pass: if the two input blocks are images `16 T … 16 T + 15` of two arrays, the
    stored block is the same images of the row pass of the arrays. -/
theorem block_rowPass1 (A0 A2 : S1024x128x128.Idx → EReal) (b0 b2 : S16x128x128.Idx → EReal) (T : Nat) (hT : T < 64)
    (h0 : ∀ y : S16x128x128.Idx, b0 y = A0 (ix3 ⟨T * 16 + (y 0).val, by have h : (y 0).val < 16 := (y 0).isLt; omega⟩ (y 1) (y 2)))
    (h2 : ∀ y : S16x128x128.Idx, b2 y = A2 (ix3 ⟨T * 16 + (y 0).val, by have h : (y 0).val < 16 := (y 0).isLt; omega⟩ (y 1) (y 2)))
    (j : S16x256x128.Idx) :
    k0_pay1 (F := Ideal) b0 b2 j
      = rowPass A0 A2 (ix3 ⟨T * 16 + (j 0).val, by have h : (j 0).val < 16 := (j 0).isLt; omega⟩ (j 1) (j 2)) := by
  rw [pay1_apply, h0, h2]
  rfl

theorem block_rowPass2 (A1 A3 : S1024x128x128.Idx → EReal) (b1 b3 : S16x128x128.Idx → EReal) (T : Nat) (hT : T < 64)
    (h1 : ∀ y : S16x128x128.Idx, b1 y = A1 (ix3 ⟨T * 16 + (y 0).val, by have h : (y 0).val < 16 := (y 0).isLt; omega⟩ (y 1) (y 2)))
    (h3 : ∀ y : S16x128x128.Idx, b3 y = A3 (ix3 ⟨T * 16 + (y 0).val, by have h : (y 0).val < 16 := (y 0).isLt; omega⟩ (y 1) (y 2)))
    (j : S16x256x128.Idx) :
    k0_pay2 (F := Ideal) b1 b3 j
      = rowPass A1 A3 (ix3 ⟨T * 16 + (j 0).val, by have h : (j 0).val < 16 := (j 0).isLt; omega⟩ (j 1) (j 2)) := by
  rw [pay2_apply, h1, h3]
  rfl

/-! ## From blocks to arrays -/

variable (m : (ℓ : Loc nD τ sig) → Buf (Elt Ideal) ℓ) (ρ : Dev nD → PrngReg)

theorem zero_offsets : (![0, 0, 0] : Fin 3 → Nat) = fun _ => 0 := funext fun a => by fin_cases a <;> rfl

/-- Every window's block index at grid point `t` is `(t, 0, 0)`: decided over the 64 points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- What grid point `t` writes back to the first output array is block `t` of the row pass of the merged
    LL and HL arrays. -/
theorem flushed4_eq (c : Dev nD) (t : Fin cfg0.N) :
    (dats m 0 c).flushed 4 t
      = ((cfg0.win 4).blk t).view.read (Elt Ideal) (rowPass (V m c main_v0) (V m c main_v2)) := by
  show (cfg0.win 4).cut (grid0.coords t) ((dats m 0 c).after 4 t) = _
  rw [after0_4]
  unfold out0_4
  rw [View.canon_unit_zero zero_offsets]
  simp only [View.ld_unit_zero (S := S16x128x128) zero_offsets]
  obtain ⟨e00, e01, e02, e10, e11, e12, e20, e21, e22, e30, e31, e32, e40, e41, e42, e50, e51, e52⟩ := idx_facts t
  have hT : t.val < 64 := lt_of_lt_of_eq t.isLt N_0
  funext j
  show k0_pay1 (F := Ideal) (iblk m c 0 t) (iblk m c 2 t) j = _
  refine (block_rowPass1 (V m c main_v0) (V m c main_v2) (iblk m c 0 t) (iblk m c 2 t) t.val hT ?_ ?_ j).trans ?_
  · intro y
    show V m c main_v0 (((cfg0.win 0).blk t).view.emb y) = V m c main_v0 _
    refine congrArg _ (funext fun a => Fin.ext ?_)
    match a with
    | ⟨0, _⟩ => show win0_0.index t (0 : Fin 3) * 16 + 1 * (y 0).val = t.val * 16 + (y 0).val; omega
    | ⟨1, _⟩ => show win0_0.index t (1 : Fin 3) * 128 + 1 * (y 1).val = (y 1).val; omega
    | ⟨2, _⟩ => show win0_0.index t (2 : Fin 3) * 128 + 1 * (y 2).val = (y 2).val; omega
  · intro y
    show V m c main_v2 (((cfg0.win 2).blk t).view.emb y) = V m c main_v2 _
    refine congrArg _ (funext fun a => Fin.ext ?_)
    match a with
    | ⟨0, _⟩ => show win0_2.index t (0 : Fin 3) * 16 + 1 * (y 0).val = t.val * 16 + (y 0).val; omega
    | ⟨1, _⟩ => show win0_2.index t (1 : Fin 3) * 128 + 1 * (y 1).val = (y 1).val; omega
    | ⟨2, _⟩ => show win0_2.index t (2 : Fin 3) * 128 + 1 * (y 2).val = (y 2).val; omega
  show rowPass (V m c main_v0) (V m c main_v2) _ = rowPass (V m c main_v0) (V m c main_v2) (((cfg0.win 4).blk t).view.emb j)
  refine congrArg _ (funext fun a => Fin.ext ?_)
  match a with
  | ⟨0, _⟩ => show t.val * 16 + (j 0).val = win0_4.index t (0 : Fin 3) * 16 + 1 * (j 0).val; omega
  | ⟨1, _⟩ => show (j 1).val = win0_4.index t (1 : Fin 3) * 256 + 1 * (j 1).val; omega
  | ⟨2, _⟩ => show (j 2).val = win0_4.index t (2 : Fin 3) * 128 + 1 * (j 2).val; omega

/-- The same for the second output array: block `t` of the row pass of the merged LH and HH arrays. -/
theorem flushed5_eq (c : Dev nD) (t : Fin cfg0.N) :
    (dats m 0 c).flushed 5 t
      = ((cfg0.win 5).blk t).view.read (Elt Ideal) (rowPass (V m c main_v1) (V m c main_v3)) := by
  show (cfg0.win 5).cut (grid0.coords t) ((dats m 0 c).after 5 t) = _
  rw [after0_5]
  unfold out0_5
  rw [View.canon_unit_zero zero_offsets]
  simp only [View.ld_unit_zero (S := S16x128x128) zero_offsets]
  obtain ⟨e00, e01, e02, e10, e11, e12, e20, e21, e22, e30, e31, e32, e40, e41, e42, e50, e51, e52⟩ := idx_facts t
  have hT : t.val < 64 := lt_of_lt_of_eq t.isLt N_0
  funext j
  show k0_pay2 (F := Ideal) (iblk m c 1 t) (iblk m c 3 t) j = _
  refine (block_rowPass2 (V m c main_v1) (V m c main_v3) (iblk m c 1 t) (iblk m c 3 t) t.val hT ?_ ?_ j).trans ?_
  · intro y
    show V m c main_v1 (((cfg0.win 1).blk t).view.emb y) = V m c main_v1 _
    refine congrArg _ (funext fun a => Fin.ext ?_)
    match a with
    | ⟨0, _⟩ => show win0_1.index t (0 : Fin 3) * 16 + 1 * (y 0).val = t.val * 16 + (y 0).val; omega
    | ⟨1, _⟩ => show win0_1.index t (1 : Fin 3) * 128 + 1 * (y 1).val = (y 1).val; omega
    | ⟨2, _⟩ => show win0_1.index t (2 : Fin 3) * 128 + 1 * (y 2).val = (y 2).val; omega
  · intro y
    show V m c main_v3 (((cfg0.win 3).blk t).view.emb y) = V m c main_v3 _
    refine congrArg _ (funext fun a => Fin.ext ?_)
    match a with
    | ⟨0, _⟩ => show win0_3.index t (0 : Fin 3) * 16 + 1 * (y 0).val = t.val * 16 + (y 0).val; omega
    | ⟨1, _⟩ => show win0_3.index t (1 : Fin 3) * 128 + 1 * (y 1).val = (y 1).val; omega
    | ⟨2, _⟩ => show win0_3.index t (2 : Fin 3) * 128 + 1 * (y 2).val = (y 2).val; omega
  show rowPass (V m c main_v1) (V m c main_v3) _ = rowPass (V m c main_v1) (V m c main_v3) (((cfg0.win 5).blk t).view.emb j)
  refine congrArg _ (funext fun a => Fin.ext ?_)
  match a with
  | ⟨0, _⟩ => show t.val * 16 + (j 0).val = win0_5.index t (0 : Fin 3) * 16 + 1 * (j 0).val; omega
  | ⟨1, _⟩ => show (j 1).val = win0_5.index t (1 : Fin 3) * 256 + 1 * (j 1).val; omega
  | ⟨2, _⟩ => show (j 2).val = win0_5.index t (2 : Fin 3) * 128 + 1 * (j 2).val; omega

/-- An index of an output array lies in point `t`'s block iff each coordinate lies in the block's range. -/
theorem mem_blk4 (t : Fin cfg0.N) (i : S1024x256x128.Idx) :
    i ∈ ((cfg0.win 4).blk t).view.set ↔ ∀ a : Fin 3, win0_4.index t a * S16x256x128.size a ≤ (i a).val ∧ (i a).val < win0_4.index t a * S16x256x128.size a + S16x256x128.size a := by
  show i ∈ ((View.whole main_v4_0).slice (win0_4.rect t)).set ↔ _
  rw [View.set_slice_whole, Rect.mem_set_unit]
  exact Iff.rfl

theorem mem_blk5 (t : Fin cfg0.N) (i : S1024x256x128.Idx) :
    i ∈ ((cfg0.win 5).blk t).view.set ↔ ∀ a : Fin 3, win0_5.index t a * S16x256x128.size a ≤ (i a).val ∧ (i a).val < win0_5.index t a * S16x256x128.size a + S16x256x128.size a := by
  show i ∈ ((View.whole main_v4_1).slice (win0_5.rect t)).set ↔ _
  rw [View.set_slice_whole, Rect.mem_set_unit]
  exact Iff.rfl

/-- Image `n` of an output array is written by grid point `n / 16`: the blocks cover the array. -/
theorem cover4 (i : S1024x256x128.Idx) :
    ∃ t : Fin cfg0.N, (cfg0.win 4).flush t = true ∧ i ∈ ((cfg0.win 4).blk t).view.set := by
  have hi0 : (i 0).val < 1024 := (i 0).isLt
  have hi1 : (i 1).val < 256 := (i 1).isLt
  have hi2 : (i 2).val < 128 := (i 2).isLt
  have hN : (i 0).val / 16 < cfg0.N := by show (i 0).val / 16 < grid0.N; rw [N_0]; omega
  refine ⟨⟨(i 0).val / 16, hN⟩, flush0_4 _, ?_⟩
  rw [mem_blk4]
  obtain ⟨e00, e01, e02, e10, e11, e12, e20, e21, e22, e30, e31, e32, e40, e41, e42, e50, e51, e52⟩ := idx_facts ⟨(i 0).val / 16, hN⟩
  have e40' : win0_4.index ⟨(i 0).val / 16, hN⟩ (0 : Fin 3) = (i 0).val / 16 := e40
  intro a
  match a with
  | ⟨0, _⟩ => show win0_4.index ⟨(i 0).val / 16, hN⟩ (0 : Fin 3) * 16 ≤ (i 0).val ∧ (i 0).val < win0_4.index ⟨(i 0).val / 16, hN⟩ (0 : Fin 3) * 16 + 16; omega
  | ⟨1, _⟩ => show win0_4.index ⟨(i 0).val / 16, hN⟩ (1 : Fin 3) * 256 ≤ (i 1).val ∧ (i 1).val < win0_4.index ⟨(i 0).val / 16, hN⟩ (1 : Fin 3) * 256 + 256; omega
  | ⟨2, _⟩ => show win0_4.index ⟨(i 0).val / 16, hN⟩ (2 : Fin 3) * 128 ≤ (i 2).val ∧ (i 2).val < win0_4.index ⟨(i 0).val / 16, hN⟩ (2 : Fin 3) * 128 + 128; omega

theorem cover5 (i : S1024x256x128.Idx) :
    ∃ t : Fin cfg0.N, (cfg0.win 5).flush t = true ∧ i ∈ ((cfg0.win 5).blk t).view.set := by
  have hi0 : (i 0).val < 1024 := (i 0).isLt
  have hi1 : (i 1).val < 256 := (i 1).isLt
  have hi2 : (i 2).val < 128 := (i 2).isLt
  have hN : (i 0).val / 16 < cfg0.N := by show (i 0).val / 16 < grid0.N; rw [N_0]; omega
  refine ⟨⟨(i 0).val / 16, hN⟩, flush0_5 _, ?_⟩
  rw [mem_blk5]
  obtain ⟨e00, e01, e02, e10, e11, e12, e20, e21, e22, e30, e31, e32, e40, e41, e42, e50, e51, e52⟩ := idx_facts ⟨(i 0).val / 16, hN⟩
  have e50' : win0_5.index ⟨(i 0).val / 16, hN⟩ (0 : Fin 3) = (i 0).val / 16 := e50
  intro a
  match a with
  | ⟨0, _⟩ => show win0_5.index ⟨(i 0).val / 16, hN⟩ (0 : Fin 3) * 16 ≤ (i 0).val ∧ (i 0).val < win0_5.index ⟨(i 0).val / 16, hN⟩ (0 : Fin 3) * 16 + 16; omega
  | ⟨1, _⟩ => show win0_5.index ⟨(i 0).val / 16, hN⟩ (1 : Fin 3) * 256 ≤ (i 1).val ∧ (i 1).val < win0_5.index ⟨(i 0).val / 16, hN⟩ (1 : Fin 3) * 256 + 256; omega
  | ⟨2, _⟩ => show win0_5.index ⟨(i 0).val / 16, hN⟩ (2 : Fin 3) * 128 ≤ (i 2).val ∧ (i 2).val < win0_5.index ⟨(i 0).val / 16, hN⟩ (2 : Fin 3) * 128 + 128; omega

/-- After the run the first output array is the row pass of the merged LL and HL arrays. -/
theorem final4 (c : Dev nD) : (dats m 0 c).arrAt 4 cfg0.N = rowPass (V m c main_v0) (V m c main_v2) :=
  (dats m 0 c).arrAt_eq_of_cover 4 _ (fun t _ => flushed4_eq m c t) cover4

/-- And the second the row pass of the merged LH and HH arrays. -/
theorem final5 (c : Dev nD) : (dats m 0 c).arrAt 5 cfg0.N = rowPass (V m c main_v1) (V m c main_v3) :=
  (dats m 0 c).arrAt_eq_of_cover 5 _ (fun t _ => flushed5_eq m c t) cover5

/-! ## The merged inputs -/

/-- The arrays the region finds are the arguments with batch and channel merged. -/
theorem V_main_v0 (c : Dev nD) : (V m c main_v0 : S1024x128x128.Idx → EReal)
    = shapeCast S1024x128x128 (m ((c : Thread nD τ).loc main_arg0)) shapeCasts_S16x64x128x128_S1024x128x128 := by
  show StableHlo.after hostOps0 (fun b => m (c, b)) (Proc.devRef .tc main_v0) = _
  after_results
  rfl
theorem V_main_v1 (c : Dev nD) : (V m c main_v1 : S1024x128x128.Idx → EReal)
    = shapeCast S1024x128x128 (m ((c : Thread nD τ).loc main_arg1)) shapeCasts_S16x64x128x128_S1024x128x128 := by
  show StableHlo.after hostOps0 (fun b => m (c, b)) (Proc.devRef .tc main_v1) = _
  after_results
  rfl
theorem V_main_v2 (c : Dev nD) : (V m c main_v2 : S1024x128x128.Idx → EReal)
    = shapeCast S1024x128x128 (m ((c : Thread nD τ).loc main_arg2)) shapeCasts_S16x64x128x128_S1024x128x128 := by
  show StableHlo.after hostOps0 (fun b => m (c, b)) (Proc.devRef .tc main_v2) = _
  after_results
  rfl
theorem V_main_v3 (c : Dev nD) : (V m c main_v3 : S1024x128x128.Idx → EReal)
    = shapeCast S1024x128x128 (m ((c : Thread nD τ).loc main_arg3)) shapeCasts_S16x64x128x128_S1024x128x128 := by
  show StableHlo.after hostOps0 (fun b => m (c, b)) (Proc.devRef .tc main_v3) = _
  after_results
  rfl

end Cert.KernelIdeal.RowPass

end
-- ==== Proof.ColPass.lean ====
/-
  The column pass, and the launched program's result. After the region the program adds and subtracts
  the two row-pass arrays, scales both, interleaves them along the column axis and splits the merged
  batch-channel axis again: one inverse Haar step along the columns (`tail`). Read at an output pixel
  `(b, c, y, z)` this is the column step, at parity `z`, of the two row-pass arrays at image `b · 64 + c`,
  row `y`, column `z / 2`; the row-pass arrays there are the row step, at parity `y`, of the merged
  sub-bands at row `y / 2`; and the merged sub-bands at image `b · 64 + c` are the arguments at
  `(b, c)`. Together: the rows-first reconstruction of the four arguments.
-/
import proofs.«136151_j6433861009800_2_alg».proof.Proof.RowPass

noncomputable section

namespace Cert.KernelIdeal.ColPass

open Cert.KernelIdeal Cert.KernelIdeal.Gen Idealize.ShloMosaic Idealize.ShloMosaic.TcCoe Idealize.SL.Sem
open Idealize.ShloMosaic.ValueIdx Cert.Haar Cert.KernelIdeal.RowPass
open Idealize.ShloMosaic.Pipeline (Dat)

/-- The lines after the region, as one function of the two row-pass arrays. -/
def tail (A4 A5 : FVec Ideal S1024x256x128 .f32) : FVec Ideal S16x64x256x256 .f32 :=
  shapeCast S16x64x256x256 (shapeCast S1024x256x256 (concatenate S1024x256x128x2 3
    [⟨S1024x256x128x1, broadcastInDim S1024x256x128x1 ![0, 1, 2] bcast_S1024x256x128_S1024x256x128x1_0_1_2
        (mulf (addf A4 A5) (broadcastInDim S1024x256x128 ![] bcast_S_S1024x256x128 (constant (F := Ideal) S_ .f32 0x3F3504F3#32)))⟩,
     ⟨S1024x256x128x1, broadcastInDim S1024x256x128x1 ![0, 1, 2] bcast_S1024x256x128_S1024x256x128x1_0_1_2
        (mulf (subf A4 A5) (broadcastInDim S1024x256x128 ![] bcast_S_S1024x256x128 (constant (F := Ideal) S_ .f32 0x3F3504F3#32)))⟩]
    concatenates_S1024x256x128x1_S1024x256x128x1_S1024x256x128x2_d3) shapeCasts_S1024x256x128x2_S1024x256x256)
    shapeCasts_S1024x256x256_S16x64x256x256

/-- The tail at an output pixel: the column step of the two arrays at the pixel's image, row, and half
    column. -/
theorem tail_apply (A4 A5 : FVec Ideal S1024x256x128 .f32) (i : S16x64x256x256.Idx)
    (hbc : (i 0).val * 64 + (i 1).val < 1024) (hq : (i 3).val / 2 < 128) :
    tail A4 A5 i = haarStep scale (i 3).val
      (A4 (ix3 ⟨(i 0).val * 64 + (i 1).val, hbc⟩ (i 2) ⟨(i 3).val / 2, hq⟩))
      (A5 (ix3 ⟨(i 0).val * 64 + (i 1).val, hbc⟩ (i 2) ⟨(i 3).val / 2, hq⟩)) := by
  unfold tail
  refine (colInterleave_split_apply _ _ _ _ _ _ i hbc hq).trans ?_
  rfl

/-- A merged sub-band at image `b · 64 + c`, half row, half column, is the argument at the source pixel. -/
theorem merged_apply (x : FVec Ideal S16x64x128x128 .f32) (h : S16x64x128x128.ShapeCasts S1024x128x128)
    (i : S16x64x256x256.Idx) (hbc : (i 0).val * 64 + (i 1).val < 1024) (hr : (i 2).val / 2 < 128) (hq : (i 3).val / 2 < 128) :
    shapeCast S1024x128x128 x h (ix3 ⟨(i 0).val * 64 + (i 1).val, hbc⟩ ⟨(i 2).val / 2, hr⟩ ⟨(i 3).val / 2, hq⟩) = x (src i) := by
  have h0 : (i 0).val < 16 := (i 0).isLt
  have h1 : (i 1).val < 64 := (i 1).isLt
  refine (mergeBatch_apply x h _ (by show ((i 0).val * 64 + (i 1).val) / 64 < 16; omega)
    (by show ((i 0).val * 64 + (i 1).val) % 64 < 64; omega)).trans (congrArg x (funext fun a => Fin.ext ?_))
  match a with
  | ⟨0, _⟩ => show ((i 0).val * 64 + (i 1).val) / 64 = (i 0).val; omega
  | ⟨1, _⟩ => show ((i 0).val * 64 + (i 1).val) % 64 = (i 1).val; omega
  | ⟨2, _⟩ => rfl
  | ⟨3, _⟩ => rfl

/-- The tail of the row passes of the merged arguments is the rows-first reconstruction. -/
theorem value_eq (x0 x1 x2 x3 : FVec Ideal S16x64x128x128 .f32) (h : S16x64x128x128.ShapeCasts S1024x128x128) :
    tail (rowPass (shapeCast S1024x128x128 x0 h) (shapeCast S1024x128x128 x2 h))
        (rowPass (shapeCast S1024x128x128 x1 h) (shapeCast S1024x128x128 x3 h))
      = idwtRowsFirst x0 x1 x2 x3 := by
  funext i
  have h0 : (i 0).val < 16 := (i 0).isLt
  have h1 : (i 1).val < 64 := (i 1).isLt
  have h2 : (i 2).val < 256 := (i 2).isLt
  have h3 : (i 3).val < 256 := (i 3).isLt
  have hbc : (i 0).val * 64 + (i 1).val < 1024 := by omega
  have hr : (i 2).val / 2 < 128 := by omega
  have hq : (i 3).val / 2 < 128 := by omega
  rw [tail_apply _ _ i hbc hq]
  unfold idwtRowsFirst rowPass
  exact congrArg₂ (haarStep scale (i 3).val)
    (congrArg₂ (haarStep scale (i 2).val) (merged_apply x0 h i hbc hr hq) (merged_apply x2 h i hbc hr hq))
    (congrArg₂ (haarStep scale (i 2).val) (merged_apply x1 h i hbc hr hq) (merged_apply x3 h i hbc hr hq))

variable (m : (ℓ : Loc nD τ sig) → Buf (Elt Ideal) ℓ) (ρ : Dev nD → PrngReg)

/-- What the program's result buffer holds after the lines that follow the region: the tail of the two
    arrays the region left. -/
theorem tail_result (c : Dev nD) :
    Pipeline.afterTail₀ cfgs (dats m) 0 (V0 m) [hostOps1] c main_v15
      = tail (rowPass (V m c main_v0) (V m c main_v2)) (rowPass (V m c main_v1) (V m c main_v3)) := by
  unfold Pipeline.afterTail₀
  show StableHlo.after hostOps1 _ (Proc.devRef .tc main_v15) = _
  after_results
  exact congrArg₂ tail ((Pipeline.withArrays_arr spec0 launch0.win.arr_inj c _ _ 4).trans (final4 m c))
    ((Pipeline.withArrays_arr spec0 launch0.win.arr_inj c _ _ 5).trans (final5 m c))

/-- The result as a function of the arguments: the rows-first reconstruction. -/
theorem result_eq (c : Dev nD) :
    Pipeline.afterTail₀ cfgs (dats m) 0 (V0 m) [hostOps1] c main_v15
      = idwtRowsFirst (m ((c : Thread nD τ).loc main_arg0)) (m ((c : Thread nD τ).loc main_arg1))
          (m ((c : Thread nD τ).loc main_arg2)) (m ((c : Thread nD τ).loc main_arg3)) := by
  rw [tail_result, V_main_v0, V_main_v1, V_main_v2, V_main_v3]
  exact value_eq _ _ _ _ _

/-- The launched program's run: it terminates with the result at the rows-first reconstruction of the
    arguments, the arguments unchanged. -/
theorem run : θ_run defs (onTc (τ := τ) (main (F := Ideal))) ⟨m, fun _ => 0, ρ⟩ fun r => ∀ c : Dev nD,
      r.2.mem ((c.tc : Thread nD τ).loc main_v15)
        = idwtRowsFirst (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.ColPass

end
-- ==== Proof.RefRun.lean ====
/-
  The reference's run, read back. The reference is a straight line of 36 host operations in three
  stretches of twelve: the column pass of (LL, LH), the column pass of (HL, HH), and the row pass of the
  two results. Each stretch is read on its own, from any contents of the buffers: a pass is an add and a
  subtract of its two operands, each scaled, the two results interleaved along the pass's axis
  (`colStage`, `rowStage`). What the buffers hold after a line of operations followed by another is what
  they hold after the second from the contents the first left (`after_append`), so the whole line's
  result is the row stage of the two column stages of the arguments, and no operation writes an argument.
-/
import proofs.«136151_j6433861009800_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The two passes as functions of whole arrays -/

/-- One inverse Haar step along the column axis: the scaled sum and the scaled difference of the
    approximation `a` and the detail `d`, interleaved along the last axis. -/
def colStage (a d : FVec F S16x64x128x128 .f32) : FVec F S16x64x128x256 .f32 :=
  shapeCast S16x64x128x256 (concatenate S16x64x128x128x2 4
    [⟨S16x64x128x128x1, broadcastInDim S16x64x128x128x1 ![0, 1, 2, 3] bcast_S16x64x128x128_S16x64x128x128x1_0_1_2_3
        (mulf (addf a d) (broadcastInDim S16x64x128x128 ![] bcast_S_S16x64x128x128 (constant S_ .f32 0x3F3504F3#32)))⟩,
     ⟨S16x64x128x128x1, broadcastInDim S16x64x128x128x1 ![0, 1, 2, 3] bcast_S16x64x128x128_S16x64x128x128x1_0_1_2_3
        (mulf (subf a d) (broadcastInDim S16x64x128x128 ![] bcast_S_S16x64x128x128 (constant S_ .f32 0x3F3504F3#32)))⟩]
    concatenates_S16x64x128x128x1_S16x64x128x128x1_S16x64x128x128x2_d4) shapeCasts_S16x64x128x128x2_S16x64x128x256

/-- One inverse Haar step along the row axis: the scaled sum and the scaled difference of `a` and `d`,
    interleaved along the second-to-last axis. -/
def rowStage (a d : FVec F S16x64x128x256 .f32) : FVec F S16x64x256x256 .f32 :=
  shapeCast S16x64x256x256 (concatenate S16x64x128x2x256 3
    [⟨S16x64x128x1x256, broadcastInDim S16x64x128x1x256 ![0, 1, 2, 4] bcast_S16x64x128x256_S16x64x128x1x256_0_1_2_4
        (mulf (addf a d) (broadcastInDim S16x64x128x256 ![] bcast_S_S16x64x128x256 (constant S_ .f32 0x3F3504F3#32)))⟩,
     ⟨S16x64x128x1x256, broadcastInDim S16x64x128x1x256 ![0, 1, 2, 4] bcast_S16x64x128x256_S16x64x128x1x256_0_1_2_4
        (mulf (subf a d) (broadcastInDim S16x64x128x256 ![] bcast_S_S16x64x128x256 (constant S_ .f32 0x3F3504F3#32)))⟩]
    concatenates_S16x64x128x1x256_S16x64x128x1x256_S16x64x128x2x256_d3) shapeCasts_S16x64x128x2x256_S16x64x256x256

/-! ## The operations -/

/-- The column pass of the first two arguments: operations 1 to 12. -/
abbrev colOps01 : List (HloOp τ sig (Elt F)) :=
  [
    binary main_arg0 main_arg1 main_v0 (addf : (⟨S16x64x128x128, .f32⟩ : BufTy).Contents (Elt F) → (⟨S16x64x128x128, .f32⟩ : BufTy).Contents (Elt F) → (⟨S16x64x128x128, .f32⟩ : BufTy).Contents (Elt F)),
    nullary main_cst (constant S_ .f32 0x3F3504F3#32),
    unary main_cst main_v1 (broadcastInDim S16x64x128x128 ![] bcast_S_S16x64x128x128 : (⟨S_, .f32⟩ : BufTy).Contents (Elt F) → (⟨S16x64x128x128, .f32⟩ : BufTy).Contents (Elt F)),
    binary main_v0 main_v1 main_v2 (mulf : (⟨S16x64x128x128, .f32⟩ : BufTy).Contents (Elt F) → (⟨S16x64x128x128, .f32⟩ : BufTy).Contents (Elt F) → (⟨S16x64x128x128, .f32⟩ : BufTy).Contents (Elt F)),
    binary main_arg0 main_arg1 main_v3 (subf : (⟨S16x64x128x128, .f32⟩ : BufTy).Contents (Elt F) → (⟨S16x64x128x128, .f32⟩ : BufTy).Contents (Elt F) → (⟨S16x64x128x128, .f32⟩ : BufTy).Contents (Elt F)),
    nullary main_cst_0 (constant S_ .f32 0x3F3504F3#32),
    unary main_cst_0 main_v4 (broadcastInDim S16x64x128x128 ![] bcast_S_S16x64x128x128 : (⟨S_, .f32⟩ : BufTy).Contents (Elt F) → (⟨S16x64x128x128, .f32⟩ : BufTy).Contents (Elt F)),
    binary main_v3 main_v4 main_v5 (mulf : (⟨S16x64x128x128, .f32⟩ : BufTy).Contents (Elt F) → (⟨S16x64x128x128, .f32⟩ : BufTy).Contents (Elt F) → (⟨S16x64x128x128, .f32⟩ : BufTy).Contents (Elt F)),
    unary main_v2 main_v6 (broadcastInDim S16x64x128x128x1 ![0, 1, 2, 3] bcast_S16x64x128x128_S16x64x128x128x1_0_1_2_3 : (⟨S16x64x128x128, .f32⟩ : BufTy).Contents (Elt F) → (⟨S16x64x128x128x1, .f32⟩ : BufTy).Contents (Elt F)),
    unary main_v5 main_v7 (broadcastInDim S16x64x128x128x1 ![0, 1, 2, 3] bcast_S16x64x128x128_S16x64x128x128x1_0_1_2_3 : (⟨S16x64x128x128, .f32⟩ : BufTy).Contents (Elt F) → (⟨S16x64x128x128x1, .f32⟩ : BufTy).Contents (Elt F)),
    binary main_v6 main_v7 main_v8 ((fun a b => concatenate S16x64x128x128x2 4 [⟨S16x64x128x128x1, a⟩, ⟨S16x64x128x128x1, b⟩] concatenates_S16x64x128x128x1_S16x64x128x128x1_S16x64x128x128x2_d4) : (⟨S16x64x128x128x1, .f32⟩ : BufTy).Contents (Elt F) → (⟨S16x64x128x128x1, .f32⟩ : BufTy).Contents (Elt F) → (⟨S16x64x128x128x2, .f32⟩ : BufTy).Contents (Elt F)),
    reshape main_v8 main_v9 rfl shapeCasts_S16x64x128x128x2_S16x64x128x256 ]

/-- The column pass of the last two float arguments: operations 13 to 24. -/
abbrev colOps23 : List (HloOp τ sig (Elt F)) :=
  [
    binary main_arg2 main_arg3 main_v10 (addf : (⟨S16x64x128x128, .f32⟩ : BufTy).Contents (Elt F) → (⟨S16x64x128x128, .f32⟩ : BufTy).Contents (Elt F) → (⟨S16x64x128x128, .f32⟩ : BufTy).Contents (Elt F)),
    nullary main_cst_1 (constant S_ .f32 0x3F3504F3#32),
    unary main_cst_1 main_v11 (broadcastInDim S16x64x128x128 ![] bcast_S_S16x64x128x128 : (⟨S_, .f32⟩ : BufTy).Contents (Elt F) → (⟨S16x64x128x128, .f32⟩ : BufTy).Contents (Elt F)),
    binary main_v10 main_v11 main_v12 (mulf : (⟨S16x64x128x128, .f32⟩ : BufTy).Contents (Elt F) → (⟨S16x64x128x128, .f32⟩ : BufTy).Contents (Elt F) → (⟨S16x64x128x128, .f32⟩ : BufTy).Contents (Elt F)),
    binary main_arg2 main_arg3 main_v13 (subf : (⟨S16x64x128x128, .f32⟩ : BufTy).Contents (Elt F) → (⟨S16x64x128x128, .f32⟩ : BufTy).Contents (Elt F) → (⟨S16x64x128x128, .f32⟩ : BufTy).Contents (Elt F)),
    nullary main_cst_2 (constant S_ .f32 0x3F3504F3#32),
    unary main_cst_2 main_v14 (broadcastInDim S16x64x128x128 ![] bcast_S_S16x64x128x128 : (⟨S_, .f32⟩ : BufTy).Contents (Elt F) → (⟨S16x64x128x128, .f32⟩ : BufTy).Contents (Elt F)),
    binary main_v13 main_v14 main_v15 (mulf : (⟨S16x64x128x128, .f32⟩ : BufTy).Contents (Elt F) → (⟨S16x64x128x128, .f32⟩ : BufTy).Contents (Elt F) → (⟨S16x64x128x128, .f32⟩ : BufTy).Contents (Elt F)),
    unary main_v12 main_v16 (broadcastInDim S16x64x128x128x1 ![0, 1, 2, 3] bcast_S16x64x128x128_S16x64x128x128x1_0_1_2_3 : (⟨S16x64x128x128, .f32⟩ : BufTy).Contents (Elt F) → (⟨S16x64x128x128x1, .f32⟩ : BufTy).Contents (Elt F)),
    unary main_v15 main_v17 (broadcastInDim S16x64x128x128x1 ![0, 1, 2, 3] bcast_S16x64x128x128_S16x64x128x128x1_0_1_2_3 : (⟨S16x64x128x128, .f32⟩ : BufTy).Contents (Elt F) → (⟨S16x64x128x128x1, .f32⟩ : BufTy).Contents (Elt F)),
    binary main_v16 main_v17 main_v18 ((fun a b => concatenate S16x64x128x128x2 4 [⟨S16x64x128x128x1, a⟩, ⟨S16x64x128x128x1, b⟩] concatenates_S16x64x128x128x1_S16x64x128x128x1_S16x64x128x128x2_d4) : (⟨S16x64x128x128x1, .f32⟩ : BufTy).Contents (Elt F) → (⟨S16x64x128x128x1, .f32⟩ : BufTy).Contents (Elt F) → (⟨S16x64x128x128x2, .f32⟩ : BufTy).Contents (Elt F)),
    reshape main_v18 main_v19 rfl shapeCasts_S16x64x128x128x2_S16x64x128x256 ]

/-- The row pass of the two column passes: operations 25 to 36. -/
abbrev rowOps : List (HloOp τ sig (Elt F)) :=
  [
    binary main_v9 main_v19 main_v20 (addf : (⟨S16x64x128x256, .f32⟩ : BufTy).Contents (Elt F) → (⟨S16x64x128x256, .f32⟩ : BufTy).Contents (Elt F) → (⟨S16x64x128x256, .f32⟩ : BufTy).Contents (Elt F)),
    nullary main_cst_3 (constant S_ .f32 0x3F3504F3#32),
    unary main_cst_3 main_v21 (broadcastInDim S16x64x128x256 ![] bcast_S_S16x64x128x256 : (⟨S_, .f32⟩ : BufTy).Contents (Elt F) → (⟨S16x64x128x256, .f32⟩ : BufTy).Contents (Elt F)),
    binary main_v20 main_v21 main_v22 (mulf : (⟨S16x64x128x256, .f32⟩ : BufTy).Contents (Elt F) → (⟨S16x64x128x256, .f32⟩ : BufTy).Contents (Elt F) → (⟨S16x64x128x256, .f32⟩ : BufTy).Contents (Elt F)),
    binary main_v9 main_v19 main_v23 (subf : (⟨S16x64x128x256, .f32⟩ : BufTy).Contents (Elt F) → (⟨S16x64x128x256, .f32⟩ : BufTy).Contents (Elt F) → (⟨S16x64x128x256, .f32⟩ : BufTy).Contents (Elt F)),
    nullary main_cst_4 (constant S_ .f32 0x3F3504F3#32),
    unary main_cst_4 main_v24 (broadcastInDim S16x64x128x256 ![] bcast_S_S16x64x128x256 : (⟨S_, .f32⟩ : BufTy).Contents (Elt F) → (⟨S16x64x128x256, .f32⟩ : BufTy).Contents (Elt F)),
    binary main_v23 main_v24 main_v25 (mulf : (⟨S16x64x128x256, .f32⟩ : BufTy).Contents (Elt F) → (⟨S16x64x128x256, .f32⟩ : BufTy).Contents (Elt F) → (⟨S16x64x128x256, .f32⟩ : BufTy).Contents (Elt F)),
    unary main_v22 main_v26 (broadcastInDim S16x64x128x1x256 ![0, 1, 2, 4] bcast_S16x64x128x256_S16x64x128x1x256_0_1_2_4 : (⟨S16x64x128x256, .f32⟩ : BufTy).Contents (Elt F) → (⟨S16x64x128x1x256, .f32⟩ : BufTy).Contents (Elt F)),
    unary main_v25 main_v27 (broadcastInDim S16x64x128x1x256 ![0, 1, 2, 4] bcast_S16x64x128x256_S16x64x128x1x256_0_1_2_4 : (⟨S16x64x128x256, .f32⟩ : BufTy).Contents (Elt F) → (⟨S16x64x128x1x256, .f32⟩ : BufTy).Contents (Elt F)),
    binary main_v26 main_v27 main_v28 ((fun a b => concatenate S16x64x128x2x256 3 [⟨S16x64x128x1x256, a⟩, ⟨S16x64x128x1x256, b⟩] concatenates_S16x64x128x1x256_S16x64x128x1x256_S16x64x128x2x256_d3) : (⟨S16x64x128x1x256, .f32⟩ : BufTy).Contents (Elt F) → (⟨S16x64x128x1x256, .f32⟩ : BufTy).Contents (Elt F) → (⟨S16x64x128x2x256, .f32⟩ : BufTy).Contents (Elt F)),
    reshape main_v28 main_v29 rfl shapeCasts_S16x64x128x2x256_S16x64x256x256 ]

/-- @main's 36 operations, in order. -/
abbrev ops : List (HloOp τ sig (Elt F)) :=
  [
    binary main_arg0 main_arg1 main_v0 (addf : (⟨S16x64x128x128, .f32⟩ : BufTy).Contents (Elt F) → (⟨S16x64x128x128, .f32⟩ : BufTy).Contents (Elt F) → (⟨S16x64x128x128, .f32⟩ : BufTy).Contents (Elt F)),
    nullary main_cst (constant S_ .f32 0x3F3504F3#32),
    unary main_cst main_v1 (broadcastInDim S16x64x128x128 ![] bcast_S_S16x64x128x128 : (⟨S_, .f32⟩ : BufTy).Contents (Elt F) → (⟨S16x64x128x128, .f32⟩ : BufTy).Contents (Elt F)),
    binary main_v0 main_v1 main_v2 (mulf : (⟨S16x64x128x128, .f32⟩ : BufTy).Contents (Elt F) → (⟨S16x64x128x128, .f32⟩ : BufTy).Contents (Elt F) → (⟨S16x64x128x128, .f32⟩ : BufTy).Contents (Elt F)),
    binary main_arg0 main_arg1 main_v3 (subf : (⟨S16x64x128x128, .f32⟩ : BufTy).Contents (Elt F) → (⟨S16x64x128x128, .f32⟩ : BufTy).Contents (Elt F) → (⟨S16x64x128x128, .f32⟩ : BufTy).Contents (Elt F)),
    nullary main_cst_0 (constant S_ .f32 0x3F3504F3#32),
    unary main_cst_0 main_v4 (broadcastInDim S16x64x128x128 ![] bcast_S_S16x64x128x128 : (⟨S_, .f32⟩ : BufTy).Contents (Elt F) → (⟨S16x64x128x128, .f32⟩ : BufTy).Contents (Elt F)),
    binary main_v3 main_v4 main_v5 (mulf : (⟨S16x64x128x128, .f32⟩ : BufTy).Contents (Elt F) → (⟨S16x64x128x128, .f32⟩ : BufTy).Contents (Elt F) → (⟨S16x64x128x128, .f32⟩ : BufTy).Contents (Elt F)),
    unary main_v2 main_v6 (broadcastInDim S16x64x128x128x1 ![0, 1, 2, 3] bcast_S16x64x128x128_S16x64x128x128x1_0_1_2_3 : (⟨S16x64x128x128, .f32⟩ : BufTy).Contents (Elt F) → (⟨S16x64x128x128x1, .f32⟩ : BufTy).Contents (Elt F)),
    unary main_v5 main_v7 (broadcastInDim S16x64x128x128x1 ![0, 1, 2, 3] bcast_S16x64x128x128_S16x64x128x128x1_0_1_2_3 : (⟨S16x64x128x128, .f32⟩ : BufTy).Contents (Elt F) → (⟨S16x64x128x128x1, .f32⟩ : BufTy).Contents (Elt F)),
    binary main_v6 main_v7 main_v8 ((fun a b => concatenate S16x64x128x128x2 4 [⟨S16x64x128x128x1, a⟩, ⟨S16x64x128x128x1, b⟩] concatenates_S16x64x128x128x1_S16x64x128x128x1_S16x64x128x128x2_d4) : (⟨S16x64x128x128x1, .f32⟩ : BufTy).Contents (Elt F) → (⟨S16x64x128x128x1, .f32⟩ : BufTy).Contents (Elt F) → (⟨S16x64x128x128x2, .f32⟩ : BufTy).Contents (Elt F)),
    reshape main_v8 main_v9 rfl shapeCasts_S16x64x128x128x2_S16x64x128x256,
    binary main_arg2 main_arg3 main_v10 (addf : (⟨S16x64x128x128, .f32⟩ : BufTy).Contents (Elt F) → (⟨S16x64x128x128, .f32⟩ : BufTy).Contents (Elt F) → (⟨S16x64x128x128, .f32⟩ : BufTy).Contents (Elt F)),
    nullary main_cst_1 (constant S_ .f32 0x3F3504F3#32),
    unary main_cst_1 main_v11 (broadcastInDim S16x64x128x128 ![] bcast_S_S16x64x128x128 : (⟨S_, .f32⟩ : BufTy).Contents (Elt F) → (⟨S16x64x128x128, .f32⟩ : BufTy).Contents (Elt F)),
    binary main_v10 main_v11 main_v12 (mulf : (⟨S16x64x128x128, .f32⟩ : BufTy).Contents (Elt F) → (⟨S16x64x128x128, .f32⟩ : BufTy).Contents (Elt F) → (⟨S16x64x128x128, .f32⟩ : BufTy).Contents (Elt F)),
    binary main_arg2 main_arg3 main_v13 (subf : (⟨S16x64x128x128, .f32⟩ : BufTy).Contents (Elt F) → (⟨S16x64x128x128, .f32⟩ : BufTy).Contents (Elt F) → (⟨S16x64x128x128, .f32⟩ : BufTy).Contents (Elt F)),
    nullary main_cst_2 (constant S_ .f32 0x3F3504F3#32),
    unary main_cst_2 main_v14 (broadcastInDim S16x64x128x128 ![] bcast_S_S16x64x128x128 : (⟨S_, .f32⟩ : BufTy).Contents (Elt F) → (⟨S16x64x128x128, .f32⟩ : BufTy).Contents (Elt F)),
    binary main_v13 main_v14 main_v15 (mulf : (⟨S16x64x128x128, .f32⟩ : BufTy).Contents (Elt F) → (⟨S16x64x128x128, .f32⟩ : BufTy).Contents (Elt F) → (⟨S16x64x128x128, .f32⟩ : BufTy).Contents (Elt F)),
    unary main_v12 main_v16 (broadcastInDim S16x64x128x128x1 ![0, 1, 2, 3] bcast_S16x64x128x128_S16x64x128x128x1_0_1_2_3 : (⟨S16x64x128x128, .f32⟩ : BufTy).Contents (Elt F) → (⟨S16x64x128x128x1, .f32⟩ : BufTy).Contents (Elt F)),
    unary main_v15 main_v17 (broadcastInDim S16x64x128x128x1 ![0, 1, 2, 3] bcast_S16x64x128x128_S16x64x128x128x1_0_1_2_3 : (⟨S16x64x128x128, .f32⟩ : BufTy).Contents (Elt F) → (⟨S16x64x128x128x1, .f32⟩ : BufTy).Contents (Elt F)),
    binary main_v16 main_v17 main_v18 ((fun a b => concatenate S16x64x128x128x2 4 [⟨S16x64x128x128x1, a⟩, ⟨S16x64x128x128x1, b⟩] concatenates_S16x64x128x128x1_S16x64x128x128x1_S16x64x128x128x2_d4) : (⟨S16x64x128x128x1, .f32⟩ : BufTy).Contents (Elt F) → (⟨S16x64x128x128x1, .f32⟩ : BufTy).Contents (Elt F) → (⟨S16x64x128x128x2, .f32⟩ : BufTy).Contents (Elt F)),
    reshape main_v18 main_v19 rfl shapeCasts_S16x64x128x128x2_S16x64x128x256,
    binary main_v9 main_v19 main_v20 (addf : (⟨S16x64x128x256, .f32⟩ : BufTy).Contents (Elt F) → (⟨S16x64x128x256, .f32⟩ : BufTy).Contents (Elt F) → (⟨S16x64x128x256, .f32⟩ : BufTy).Contents (Elt F)),
    nullary main_cst_3 (constant S_ .f32 0x3F3504F3#32),
    unary main_cst_3 main_v21 (broadcastInDim S16x64x128x256 ![] bcast_S_S16x64x128x256 : (⟨S_, .f32⟩ : BufTy).Contents (Elt F) → (⟨S16x64x128x256, .f32⟩ : BufTy).Contents (Elt F)),
    binary main_v20 main_v21 main_v22 (mulf : (⟨S16x64x128x256, .f32⟩ : BufTy).Contents (Elt F) → (⟨S16x64x128x256, .f32⟩ : BufTy).Contents (Elt F) → (⟨S16x64x128x256, .f32⟩ : BufTy).Contents (Elt F)),
    binary main_v9 main_v19 main_v23 (subf : (⟨S16x64x128x256, .f32⟩ : BufTy).Contents (Elt F) → (⟨S16x64x128x256, .f32⟩ : BufTy).Contents (Elt F) → (⟨S16x64x128x256, .f32⟩ : BufTy).Contents (Elt F)),
    nullary main_cst_4 (constant S_ .f32 0x3F3504F3#32),
    unary main_cst_4 main_v24 (broadcastInDim S16x64x128x256 ![] bcast_S_S16x64x128x256 : (⟨S_, .f32⟩ : BufTy).Contents (Elt F) → (⟨S16x64x128x256, .f32⟩ : BufTy).Contents (Elt F)),
    binary main_v23 main_v24 main_v25 (mulf : (⟨S16x64x128x256, .f32⟩ : BufTy).Contents (Elt F) → (⟨S16x64x128x256, .f32⟩ : BufTy).Contents (Elt F) → (⟨S16x64x128x256, .f32⟩ : BufTy).Contents (Elt F)),
    unary main_v22 main_v26 (broadcastInDim S16x64x128x1x256 ![0, 1, 2, 4] bcast_S16x64x128x256_S16x64x128x1x256_0_1_2_4 : (⟨S16x64x128x256, .f32⟩ : BufTy).Contents (Elt F) → (⟨S16x64x128x1x256, .f32⟩ : BufTy).Contents (Elt F)),
    unary main_v25 main_v27 (broadcastInDim S16x64x128x1x256 ![0, 1, 2, 4] bcast_S16x64x128x256_S16x64x128x1x256_0_1_2_4 : (⟨S16x64x128x256, .f32⟩ : BufTy).Contents (Elt F) → (⟨S16x64x128x1x256, .f32⟩ : BufTy).Contents (Elt F)),
    binary main_v26 main_v27 main_v28 ((fun a b => concatenate S16x64x128x2x256 3 [⟨S16x64x128x1x256, a⟩, ⟨S16x64x128x1x256, b⟩] concatenates_S16x64x128x1x256_S16x64x128x1x256_S16x64x128x2x256_d3) : (⟨S16x64x128x1x256, .f32⟩ : BufTy).Contents (Elt F) → (⟨S16x64x128x1x256, .f32⟩ : BufTy).Contents (Elt F) → (⟨S16x64x128x2x256, .f32⟩ : BufTy).Contents (Elt F)),
    reshape main_v28 main_v29 rfl shapeCasts_S16x64x128x2x256_S16x64x256x256 ]

theorem ops_eq : (ops : List (HloOp τ sig (Elt F))) = colOps01 ++ (colOps23 ++ rowOps) := rfl

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., unary_bufs_sub .., unary_bufs_sub .., binary_bufs_sub .., reshape_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., reshape_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., reshape_bufs_sub ..⟩

/-! ## Reading the stretches -/

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem colOps01_v9 (W : Valuation τ sig (Elt F)) :
    after colOps01 W (Proc.devRef .tc main_v9) = colStage (W (Proc.devRef .tc main_arg0)) (W (Proc.devRef .tc main_arg1)) := by
  after_results
  rfl
theorem colOps01_arg2 (W : Valuation τ sig (Elt F)) :
    after colOps01 W (Proc.devRef .tc main_arg2) = W (Proc.devRef .tc main_arg2) := by
  after_results
theorem colOps01_arg3 (W : Valuation τ sig (Elt F)) :
    after colOps01 W (Proc.devRef .tc main_arg3) = W (Proc.devRef .tc main_arg3) := by
  after_results
theorem colOps23_v19 (W : Valuation τ sig (Elt F)) :
    after colOps23 W (Proc.devRef .tc main_v19) = colStage (W (Proc.devRef .tc main_arg2)) (W (Proc.devRef .tc main_arg3)) := by
  after_results
  rfl
theorem colOps23_v9 (W : Valuation τ sig (Elt F)) :
    after colOps23 W (Proc.devRef .tc main_v9) = W (Proc.devRef .tc main_v9) := by
  after_results
theorem rowOps_v29 (W : Valuation τ sig (Elt F)) :
    after rowOps W (Proc.devRef .tc main_v29) = rowStage (W (Proc.devRef .tc main_v9)) (W (Proc.devRef .tc main_v19)) := by
  after_results
  rfl

/-- The whole line's result: the row stage of the two column stages of the arguments. -/
theorem result_eq (V : Valuation τ sig (Elt F)) :
    after ops V (Proc.devRef .tc main_v29)
      = rowStage (colStage (V (Proc.devRef .tc main_arg0)) (V (Proc.devRef .tc main_arg1)))
          (colStage (V (Proc.devRef .tc main_arg2)) (V (Proc.devRef .tc main_arg3))) := by
  rw [ops_eq, after_append, after_append, rowOps_v29, colOps23_v9, colOps23_v19, colOps01_v9, colOps01_arg2, colOps01_arg3]

/-- No operation writes an argument. -/
theorem kept (V : Valuation τ sig (Elt F)) (r : Ref sig .tc)
    (hr : r = main_arg0 ∨ r = main_arg1 ∨ r = main_arg2 ∨ r = main_arg3 ∨ r = main_arg4) :
    after ops V (Proc.devRef .tc r) = V (Proc.devRef .tc r) := by
  refine after_of_writes_sub (W := [main_v0, main_cst, main_v1, main_v2, main_v3, main_cst_0, main_v4, main_v5, main_v6, main_v7,
    main_v8, main_v9, main_v10, main_cst_1, main_v11, main_v12, main_v13, main_cst_2, main_v14, main_v15, main_v16, main_v17,
    main_v18, main_v19, main_v20, main_cst_3, main_v21, main_v22, main_v23, main_cst_4, main_v24, main_v25, main_v26, main_v27,
    main_v28, main_v29]) ops V ?_ ?_
  · simp only [List.Forall, nullary_writes, unary_writes, binary_writes, reshape_writes]
    repeat' apply And.intro
    all_goals (intro x hx; rw [Finset.mem_singleton] at hx; subst hx; exact List.mem_toFinset.mpr (List.mem_map.mpr ⟨_, by decide, rfl⟩))
  · rcases hr with rfl | rfl | rfl | rfl | rfl <;> decide

/-! ## The run -/

/-- On every device, from any memory with zero counters: every weakly fair execution of @main terminates
    with the result at the row stage of the two column stages of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
        = rowStage (colStage (m ((c.tc : Thread nD τ).loc main_arg0)) (m ((c.tc : Thread nD τ).loc main_arg1)))
            (colStage (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v29).trans (result_eq _),
      (h c main_arg0).trans (kept _ _ (.inl rfl)),
      (h c main_arg1).trans (kept _ _ (.inr (.inl rfl))),
      (h c main_arg2).trans (kept _ _ (.inr (.inr (.inl rfl)))),
      (h c main_arg3).trans (kept _ _ (.inr (.inr (.inr (.inl rfl))))),
      (h c main_arg4).trans (kept _ _ (.inr (.inr (.inr (.inr rfl)))))⟩)
    (run_seq scopedRefs_eq scopedSems_eq defs main (fun _ => ops) main_eq (fun _ => ops_sub) m ρ)

end Cert.ReferenceIdeal.RefRun

end
-- ==== Proof.RefValue.lean ====
/-
  The reference computes the columns-first reconstruction. Its column stage at column `z` is the Haar
  step, at parity `z`, of its two operands at column `z / 2`; its row stage at row `y` the step, at
  parity `y`, of its two operands at row `y / 2`. Composed at an output pixel this is the definition of
  the columns-first reconstruction.
-/
import proofs.«136151_j6433861009800_2_alg».proof.Proof.RefRun
import proofs.«136151_j6433861009800_2_alg».proof.Proof.HaarSpec
import proofs.«136151_j6433861009800_2_alg».proof.Proof.Layout

noncomputable section

namespace Cert.ReferenceIdeal.RefValue

open Cert.ReferenceIdeal Cert.ReferenceIdeal.Gen Cert.ReferenceIdeal.RefRun Idealize.ShloMosaic Idealize.ShloMosaic.ValueIdx Cert.Haar

/-- The column stage at an index: the Haar step, at the column's parity, of the operands at half the column. -/
theorem colStage_apply (a d : FVec Ideal S16x64x128x128 .f32) (j : S16x64x128x256.Idx) (hq : (j 3).val / 2 < 128) :
    colStage (F := Ideal) a d j
      = haarStep scale (j 3).val (a (ix4 (j 0) (j 1) (j 2) ⟨(j 3).val / 2, hq⟩)) (d (ix4 (j 0) (j 1) (j 2) ⟨(j 3).val / 2, hq⟩)) := by
  unfold colStage
  refine (colInterleave_apply _ _ _ _ _ j hq).trans ?_
  rfl

/-- The row stage at an index: the Haar step, at the row's parity, of the operands at half the row. -/
theorem rowStage_apply (a d : FVec Ideal S16x64x128x256 .f32) (i : S16x64x256x256.Idx) (hq : (i 2).val / 2 < 128) :
    rowStage (F := Ideal) a d i
      = haarStep scale (i 2).val (a (ix4 (i 0) (i 1) ⟨(i 2).val / 2, hq⟩ (i 3))) (d (ix4 (i 0) (i 1) ⟨(i 2).val / 2, hq⟩ (i 3))) := by
  unfold rowStage
  refine (rowInterleave_apply _ _ _ _ _ i hq).trans ?_
  rfl

/-- The reference's result is the columns-first reconstruction of its arguments. -/
theorem value_eq (x0 x1 x2 x3 : FVec Ideal S16x64x128x128 .f32) :
    rowStage (F := Ideal) (colStage x0 x1) (colStage x2 x3) = idwtColsFirst x0 x1 x2 x3 := by
  funext i
  have h2 : (i 2).val < 256 := (i 2).isLt
  have h3 : (i 3).val < 256 := (i 3).isLt
  have hr : (i 2).val / 2 < 128 := by omega
  have hq : (i 3).val / 2 < 128 := by omega
  rw [rowStage_apply _ _ i hr]
  unfold idwtColsFirst
  exact congrArg₂ (haarStep scale (i 2).val) (colStage_apply x0 x1 _ hq) (colStage_apply x2 x3 _ hq)

end Cert.ReferenceIdeal.RefValue

end
-- ==== Proof.lean ====
/-
  The launched program reconstructs an image from its four Haar sub-bands rows first: inside the region
  one inverse Haar step along the rows, on the sub-bands with batch and channel merged, and after the
  region one step along the columns. The reference does the columns first, then the rows. Each output
  pixel is, either way, a signed sum of the four coefficients at the halved coordinates times the
  square of the scale, with signs given by the two parities; the precondition makes the coefficients
  real numbers, the scale is one, so the two orders agree pixel by pixel (`Cert.Haar.idwt_orders_agree`).
  The three frames are the generated frame runs and the reference's run read back; the program was
  printed for the ideal instance with no rewrite, so there is nothing to preserve.
-/
import proofs.«136151_j6433861009800_2_alg».proof.Defs
import proofs.«136151_j6433861009800_2_alg».proof.Proof.Gen.Kernel
import proofs.«136151_j6433861009800_2_alg».proof.Proof.Gen.Kernel.Skeleton
import proofs.«136151_j6433861009800_2_alg».proof.Proof.Gen.Kernel.Launch
import proofs.«136151_j6433861009800_2_alg».proof.Proof.Gen.Kernel.Points
import proofs.«136151_j6433861009800_2_alg».proof.Proof.Gen.Kernel.Frame
import proofs.«136151_j6433861009800_2_alg».proof.Proof.Gen.KernelIdeal
import proofs.«136151_j6433861009800_2_alg».proof.Proof.Gen.KernelIdeal.Skeleton
import proofs.«136151_j6433861009800_2_alg».proof.Proof.Gen.KernelIdeal.Launch
import proofs.«136151_j6433861009800_2_alg».proof.Proof.Gen.KernelIdeal.Points
import proofs.«136151_j6433861009800_2_alg».proof.Proof.Gen.KernelIdeal.Frame
import proofs.«136151_j6433861009800_2_alg».proof.Proof.Gen.ReferenceIdeal
import proofs.«136151_j6433861009800_2_alg».proof.Proof.Gen.Pre_finite_inputs
import proofs.«136151_j6433861009800_2_alg».proof.Proof.HaarSpec
import proofs.«136151_j6433861009800_2_alg».proof.Proof.Finite
import proofs.«136151_j6433861009800_2_alg».proof.Proof.ColPass
import proofs.«136151_j6433861009800_2_alg».proof.Proof.RefValue
import Idealize.ShloMosaic.Adequacy
import Idealize.ShloMosaic.Init

noncomputable section

namespace Cert.Proof

open Idealize.ShloMosaic Idealize.ShloMosaic.TcCoe Idealize.SL.Sem Cert.Haar

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories that agree on the arguments, the launched program ends at the rows-first
    reconstruction and the reference at the columns-first one of the same four real-valued arrays. -/
theorem algebraic : Cert.algebraic_KernelIdeal_ReferenceIdeal := by
  intro m ρ m' ρ' hpre hagree
  refine ⟨_, Cert.KernelIdeal.ColPass.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, Cert.ReferenceIdeal.RefValue.value_eq]
  obtain ⟨h0, h1, h2, h3⟩ := reals_of_pre _ _ _ _ _ (hpre c)
  exact idwt_orders_agree _ _ _ _ h0 h1 h2 h3

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
